-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x128 : Shape := ⟨2, ![300000, 128]⟩
abbrev S2x9600000 : Shape := ⟨2, ![2, 9600000]⟩
abbrev S300000 : Shape := ⟨1, ![300000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S300000x128 : S_.BroadcastsInDim S300000x128 (![] : Fin 0 → Fin S300000x128.rank)
  reducesTo_S300000x128_S_d0_1 : S300000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S300000x128 .f32) (main_arg1 : IVec S2x9600000 32) (main_arg2 : IVec S300000 32) (main_arg3 : FVec F S128x16 .f32) (main_arg4 : FVec F S16 .f32) (main_arg5 : FVec F S16x2 .f32) (main_arg6 : FVec F S2 .f32) : IVec S_ 1 :=
  let main_v0 : FVec F S300000x128 .f32 := Host.absf main_arg0
  let main_cst : FVec F S_ .f32 := constant S_ .f32 0x7F800000#32
  let main_v1 : FVec F S300000x128 .f32 := broadcastInDim S300000x128 ![] bcast_S_S300000x128 main_cst
  let main_v2 : IVec S300000x128 1 := cmpf .olt main_v0 main_v1
  let main_c : IVec S_ 1 := constantI S_ 1 1#1
  let main_v3 : IVec S_ 1 := (fun x v => Host.reduce IntOp.andi x v reducesTo_S300000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg5
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg6 main_v13 main_v16
-- ==== Kernel.lean ====
abbrev S300000x128 : Shape := ⟨2, ![300000, 128]⟩
abbrev S2x9600000 : Shape := ⟨2, ![2, 9600000]⟩
abbrev S300000 : Shape := ⟨1, ![300000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x9600000 : Shape := ⟨2, ![1, 9600000]⟩
abbrev S9600000 : Shape := ⟨1, ![9600000]⟩
abbrev S9900000 : Shape := ⟨1, ![9900000]⟩
abbrev S_ : Shape := ⟨0, ![]⟩
abbrev S9900000x1 : Shape := ⟨2, ![9900000, 1]⟩
abbrev S300000x16 : Shape := ⟨2, ![300000, 16]⟩
abbrev S12000x128 : Shape := ⟨2, ![12000, 128]⟩
abbrev S12000x16 : Shape := ⟨2, ![12000, 16]⟩
abbrev S9900000x16 : Shape := ⟨2, ![9900000, 16]⟩
abbrev S6600x16 : Shape := ⟨2, ![6600, 16]⟩
abbrev S6600x1 : Shape := ⟨2, ![6600, 1]⟩
abbrev S1x16 : Shape := ⟨2, ![1, 16]⟩
abbrev S300000x2 : Shape := ⟨2, ![300000, 2]⟩
abbrev S12000x2 : Shape := ⟨2, ![12000, 2]⟩
abbrev S9900000x2 : Shape := ⟨2, ![9900000, 2]⟩
abbrev S6600x2 : Shape := ⟨2, ![6600, 2]⟩
abbrev S1x2 : Shape := ⟨2, ![1, 2]⟩
abbrev S512 : Shape := ⟨1, ![512]⟩
abbrev S300000x1 : Shape := ⟨2, ![300000, 1]⟩
abbrev S512x2 : Shape := ⟨2, ![512, 2]⟩
abbrev S512x1 : Shape := ⟨2, ![512, 1]⟩

abbrev nBuf : Space → Nat
  | .hbm => 95
  | .vmem => 35
  | .smem => 0
  | _ => 0

abbrev bufTy : (tb : Table) → Fin (tcTables nBuf tb) → BufTy
  | .hbm, ⟨0, _⟩ => ⟨S300000x128, .f32⟩
  | .hbm, ⟨1, _⟩ => ⟨S2x9600000, .i32⟩
  | .hbm, ⟨2, _⟩ => ⟨S300000, .i32⟩
  | .hbm, ⟨3, _⟩ => ⟨S128x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S1x9600000, .i32⟩
  | .hbm, ⟨8, _⟩ => ⟨S9600000, .i32⟩
  | .hbm, ⟨9, _⟩ => ⟨S300000, .i32⟩
  | .hbm, ⟨10, _⟩ => ⟨S9900000, .i32⟩
  | .hbm, ⟨11, _⟩ => ⟨S1x9600000, .i32⟩
  | .hbm, ⟨12, _⟩ => ⟨S9600000, .i32⟩
  | .hbm, ⟨13, _⟩ => ⟨S300000, .i32⟩
  | .hbm, ⟨14, _⟩ => ⟨S9900000, .i32⟩
  | .hbm, ⟨15, _⟩ => ⟨S_, .f32⟩
  | .hbm, ⟨16, _⟩ => ⟨S9900000, .f32⟩
  | .hbm, ⟨17, _⟩ => ⟨S_, .f32⟩
  | .hbm, ⟨18, _⟩ => ⟨S300000, .f32⟩
  | .hbm, ⟨19, _⟩ => ⟨S9900000x1, .i32⟩
  | .hbm, ⟨20, _⟩ => ⟨S300000, .f32⟩
  | .hbm, ⟨21, _⟩ => ⟨S_, .f32⟩
  | .hbm, ⟨22, _⟩ => ⟨S300000, .f32⟩
  | .hbm, ⟨23, _⟩ => ⟨S300000, .i1⟩
  | .hbm, ⟨24, _⟩ => ⟨S300000, .f32⟩
  | .hbm, ⟨25, _⟩ => ⟨S_, .f32⟩
  | .hbm, ⟨26, _⟩ => ⟨S_, .f32⟩
  | .hbm, ⟨27, _⟩ => ⟨S300000, .f32⟩
  | .hbm, ⟨28, _⟩ => ⟨S300000, .f32⟩
  | .hbm, ⟨29, _⟩ => ⟨S_, .i32⟩
  | .hbm, ⟨30, _⟩ => ⟨S9900000, .i32⟩
  | .hbm, ⟨31, _⟩ => ⟨S9900000, .i1⟩
  | .hbm, ⟨32, _⟩ => ⟨S_, .i32⟩
  | .hbm, ⟨33, _⟩ => ⟨S9900000, .i32⟩
  | .hbm, ⟨34, _⟩ => ⟨S9900000, .i32⟩
  | .hbm, ⟨35, _⟩ => ⟨S9900000, .i32⟩
  | .hbm, ⟨36, _⟩ => ⟨S9900000x1, .i32⟩
  | .hbm, ⟨37, _⟩ => ⟨S9900000, .f32⟩
  | .hbm, ⟨38, _⟩ => ⟨S_, .i32⟩
  | .hbm, ⟨39, _⟩ => ⟨S9900000, .i32⟩
  | .hbm, ⟨40, _⟩ => ⟨S9900000, .i1⟩
  | .hbm, ⟨41, _⟩ => ⟨S_, .i32⟩
  | .hbm, ⟨42, _⟩ => ⟨S9900000, .i32⟩
  | .hbm, ⟨43, _⟩ => ⟨S9900000, .i32⟩
  | .hbm, ⟨44, _⟩ => ⟨S9900000, .i32⟩
  | .hbm, ⟨45, _⟩ => ⟨S9900000x1, .i32⟩
  | .hbm, ⟨46, _⟩ => ⟨S9900000, .f32⟩
  | .hbm, ⟨47, _⟩ => ⟨S9900000, .f32⟩
  | .hbm, ⟨48, _⟩ => ⟨S9900000x1, .f32⟩
  | .hbm, ⟨49, _⟩ => ⟨S300000x16, .f32⟩
  | .hbm, ⟨50, _⟩ => ⟨S_, .i32⟩
  | .hbm, ⟨51, _⟩ => ⟨S9900000, .i32⟩
  | .hbm, ⟨52, _⟩ => ⟨S9900000, .i1⟩
  | .hbm, ⟨53, _⟩ => ⟨S_, .i32⟩
  | .hbm, ⟨54, _⟩ => ⟨S9900000, .i32⟩
  | .hbm, ⟨55, _⟩ => ⟨S9900000, .i32⟩
  | .hbm, ⟨56, _⟩ => ⟨S9900000, .i32⟩
  | .hbm, ⟨57, _⟩ => ⟨S9900000x1, .i32⟩
  | .hbm, ⟨58, _⟩ => ⟨S9900000x16, .f32⟩
  | .hbm, ⟨59, _⟩ => ⟨S9900000x16, .f32⟩
  | .hbm, ⟨60, _⟩ => ⟨S_, .f32⟩
  | .hbm, ⟨61, _⟩ => ⟨S300000x16, .f32⟩
  | .hbm, ⟨62, _⟩ => ⟨S9900000x1, .i32⟩
  | .hbm, ⟨63, _⟩ => ⟨S300000x16, .f32⟩
  | .hbm, ⟨64, _⟩ => ⟨S1x16, .f32⟩
  | .hbm, ⟨65, _⟩ => ⟨S300000x16, .f32⟩
  | .hbm, ⟨66, _⟩ => ⟨S300000x2, .f32⟩
  | .hbm, ⟨67, _⟩ => ⟨S_, .i32⟩
  | .hbm, ⟨68, _⟩ => ⟨S9900000, .i32⟩
  | .hbm, ⟨69, _⟩ => ⟨S9900000, .i1⟩
  | .hbm, ⟨70, _⟩ => ⟨S_, .i32⟩
  | .hbm, ⟨71, _⟩ => ⟨S9900000, .i32⟩
  | .hbm, ⟨72, _⟩ => ⟨S9900000, .i32⟩
  | .hbm, ⟨73, _⟩ => ⟨S9900000, .i32⟩
  | .hbm, ⟨74, _⟩ => ⟨S9900000x1, .i32⟩
  | .hbm, ⟨75, _⟩ => ⟨S9900000x2, .f32⟩
  | .hbm, ⟨76, _⟩ => ⟨S9900000x2, .f32⟩
  | .hbm, ⟨77, _⟩ => ⟨S_, .f32⟩
  | .hbm, ⟨78, _⟩ => ⟨S300000x2, .f32⟩
  | .hbm, ⟨79, _⟩ => ⟨S9900000x1, .i32⟩
  | .hbm, ⟨80, _⟩ => ⟨S300000x2, .f32⟩
  | .hbm, ⟨81, _⟩ => ⟨S1x2, .f32⟩
  | .hbm, ⟨82, _⟩ => ⟨S300000x2, .f32⟩
  | .hbm, ⟨83, _⟩ => ⟨S_, .f32⟩
  | .hbm, ⟨84, _⟩ => ⟨S300000, .f32⟩
  | .hbm, ⟨85, _⟩ => ⟨S_, .f32⟩
  | .hbm, ⟨86, _⟩ => ⟨S512, .f32⟩
  | .hbm, ⟨87, _⟩ => ⟨S300000x1, .i32⟩
  | .hbm, ⟨88, _⟩ => ⟨S512, .f32⟩
  | .hbm, ⟨89, _⟩ => ⟨S_, .f32⟩
  | .hbm, ⟨90, _⟩ => ⟨S512x2, .f32⟩
  | .hbm, ⟨91, _⟩ => ⟨S300000x1, .i32⟩
  | .hbm, ⟨92, _⟩ => ⟨S512x2, .f32⟩
  | .hbm, ⟨93, _⟩ => ⟨S512x1, .f32⟩
  | .hbm, ⟨94, _⟩ => ⟨S512x2, .f32⟩
  | .local _ .vmem, ⟨0, _⟩ => ⟨S12000x128, .f32⟩
  | .local _ .vmem, ⟨1, _⟩ => ⟨S12000x128, .f32⟩
  | .local _ .vmem, ⟨2, _⟩ => ⟨S128x16, .f32⟩
  | .local _ .vmem, ⟨3, _⟩ => ⟨S12000x16, .f32⟩
  | .local _ .vmem, ⟨4, _⟩ => ⟨S12000x16, .f32⟩
  | .local _ .vmem, ⟨5, _⟩ => ⟨S6600x16, .f32⟩
  | .local _ .vmem, ⟨6, _⟩ => ⟨S6600x16, .f32⟩
  | .local _ .vmem, ⟨7, _⟩ => ⟨S6600x1, .f32⟩
  | .local _ .vmem, ⟨8, _⟩ => ⟨S6600x1, .f32⟩
  | .local _ .vmem, ⟨9, _⟩ => ⟨S6600x16, .f32⟩
  | .local _ .vmem, ⟨10, _⟩ => ⟨S6600x16, .f32⟩
  | .local _ .vmem, ⟨11, _⟩ => ⟨S12000x16, .f32⟩
  | .local _ .vmem, ⟨12, _⟩ => ⟨S12000x16, .f32⟩
  | .local _ .vmem, ⟨13, _⟩ => ⟨S1x16, .f32⟩
  | .local _ .vmem, ⟨14, _⟩ => ⟨S12000x16, .f32⟩
  | .local _ .vmem, ⟨15, _⟩ => ⟨S12000x16, .f32⟩
  | .local _ .vmem, ⟨16, _⟩ => ⟨S12000x16, .f32⟩
  | .local _ .vmem, ⟨17, _⟩ => ⟨S12000x16, .f32⟩
  | .local _ .vmem, ⟨18, _⟩ => ⟨S16x2, .f32⟩
  | .local _ .vmem, ⟨19, _⟩ => ⟨S12000x2, .f32⟩
  | .local _ .vmem, ⟨20, _⟩ => ⟨S12000x2, .f32⟩
  | .local _ .vmem, ⟨21, _⟩ => ⟨S6600x2, .f32⟩
  | .local _ .vmem, ⟨22, _⟩ => ⟨S6600x2, .f32⟩
  | .local _ .vmem, ⟨23, _⟩ => ⟨S6600x1, .f32⟩
  | .local _ .vmem, ⟨24, _⟩ => ⟨S6600x1, .f32⟩
  | .local _ .vmem, ⟨25, _⟩ => ⟨S6600x2, .f32⟩
  | .local _ .vmem, ⟨26, _⟩ => ⟨S6600x2, .f32⟩
  | .local _ .vmem, ⟨27, _⟩ => ⟨S12000x2, .f32⟩
  | .local _ .vmem, ⟨28, _⟩ => ⟨S12000x2, .f32⟩
  | .local _ .vmem, ⟨29, _⟩ => ⟨S1x2, .f32⟩
  | .local _ .vmem, ⟨30, _⟩ => ⟨S12000x2, .f32⟩
  | .local _ .vmem, ⟨31, _⟩ => ⟨S12000x2, .f32⟩
  | .local _ .vmem, ⟨32, _⟩ => ⟨S512x2, .f32⟩
  | .local _ .vmem, ⟨33, _⟩ => ⟨S512x1, .f32⟩
  | .local _ .vmem, ⟨34, _⟩ => ⟨S512x2, .f32⟩
  | _, _ => ⟨S300000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg2_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem2_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6600x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6600x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6600x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S12000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S12000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6600x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6600x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6600x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S12000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x2 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S512x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S512x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x9600000_S1x9600000_0_0 : S2x9600000.Slices ![0, 0] S1x9600000
  shapeCasts_S1x9600000_S9600000 : S1x9600000.ShapeCasts S9600000
  concatenates_S9600000_S300000_S9900000_d0 : Shape.Concatenates [S9600000, S300000] S9900000 0
  slices_S2x9600000_S1x9600000_1_0 : S2x9600000.Slices ![1, 0] S1x9600000
  bcast_S_S9900000 : S_.BroadcastsInDim S9900000 (![] : Fin 0 → Fin S9900000.rank)
  bcast_S_S300000 : S_.BroadcastsInDim S300000 (![] : Fin 0 → Fin S300000.rank)
  bcast_S9900000_S9900000x1_0 : S9900000.BroadcastsInDim S9900000x1 (![0] : Fin 1 → Fin S9900000x1.rank)
  shapeCasts_S9900000_S9900000x1 : S9900000.ShapeCasts S9900000x1
  inb_S12000x128_S12000x128_0_0 : ∀ a, (![0, 0] : Fin 2 → Nat) a + S12000x128.size a ≤ S12000x128.size a
  h_S12000x128 : 0 < S12000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S12000x16_S12000x16_0_0 : ∀ a, (![0, 0] : Fin 2 → Nat) a + S12000x16.size a ≤ S12000x16.size a
  h_S12000x16 : 0 < S12000x16.numel
  inb_S6600x1_S6600x1_0_0 : ∀ a, (![0, 0] : Fin 2 → Nat) a + S6600x1.size a ≤ S6600x1.size a
  h_S6600x1 : 0 < S6600x1.numel
  shapeCasts_S6600x1_S6600x1 : S6600x1.ShapeCasts S6600x1
  broadcasts_S6600x1_S6600x16 : S6600x1.Broadcasts S6600x16
  inb_S6600x16_S6600x16_0_0 : ∀ a, (![0, 0] : Fin 2 → Nat) a + S6600x16.size a ≤ S6600x16.size a
  h_S6600x16 : 0 < S6600x16.numel
  shapeCasts_S6600x16_S6600x16 : S6600x16.ShapeCasts S6600x16
  bcast_S_S300000x16 : S_.BroadcastsInDim S300000x16 (![] : Fin 0 → Fin S300000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S12000x16 : S1x16.Broadcasts S12000x16
  shapeCasts_S12000x16_S12000x16 : S12000x16.ShapeCasts S12000x16
  inb_S16x2_S16x2_0_0 : ∀ a, (![0, 0] : Fin 2 → Nat) a + S16x2.size a ≤ S16x2.size a
  h_S16x2 : 0 < S16x2.numel
  inb_S12000x2_S12000x2_0_0 : ∀ a, (![0, 0] : Fin 2 → Nat) a + S12000x2.size a ≤ S12000x2.size a
  h_S12000x2 : 0 < S12000x2.numel
  broadcasts_S6600x1_S6600x2 : S6600x1.Broadcasts S6600x2
  inb_S6600x2_S6600x2_0_0 : ∀ a, (![0, 0] : Fin 2 → Nat) a + S6600x2.size a ≤ S6600x2.size a
  h_S6600x2 : 0 < S6600x2.numel
  shapeCasts_S6600x2_S6600x2 : S6600x2.ShapeCasts S6600x2
  bcast_S_S300000x2 : S_.BroadcastsInDim S300000x2 (![] : Fin 0 → Fin S300000x2.rank)
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S12000x2 : S1x2.Broadcasts S12000x2
  shapeCasts_S12000x2_S12000x2 : S12000x2.ShapeCasts S12000x2
  bcast_S_S512 : S_.BroadcastsInDim S512 (![] : Fin 0 → Fin S512.rank)
  bcast_S300000_S300000x1_0 : S300000.BroadcastsInDim S300000x1 (![0] : Fin 1 → Fin S300000x1.rank)
  bcast_S_S512x2 : S_.BroadcastsInDim S512x2 (![] : Fin 0 → Fin S512x2.rank)
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2 : S512x1.Broadcasts S512x2
  inb_S512x2_S512x2_0_0 : ∀ a, (![0, 0] : Fin 2 → Nat) a + S512x2.size a ≤ S512x2.size a
  h_S512x2 : 0 < S512x2.numel
  shapeCasts_S512x2_S512x2 : S512x2.ShapeCasts S512x2
  reduces_S512x2_S512 : S512x2.Reduces [1] S512
  scatter_S300000_S9900000x1_S9900000_n_0_0_1_wf : ScatterDims.WF S300000 S9900000x1 S9900000 [] [0] [0] 1
  gather_S300000_S9900000x1_S9900000_n_0_n_n_0_1_1_wf : GatherDims.WF S300000 S9900000x1 S9900000 [] [0] [] [0] [] 1 ![1]
  dot_S12000x128_S128x16_S12000x16_1_0_0_1_n_n_wf : DotDims.WF S12000x128 S128x16 S12000x16 [1] [0] [0] [1] [] []
  gather_S300000x16_S9900000x1_S9900000x16_1_0_n_n_0_1_116_wf : GatherDims.WF S300000x16 S9900000x1 S9900000x16 [1] [0] [] [0] [] 1 ![1, 16]
  scatter_S300000x16_S9900000x1_S9900000x16_1_0_0_1_wf : ScatterDims.WF S300000x16 S9900000x1 S9900000x16 [1] [0] [0] 1
  dot_S12000x16_S16x2_S12000x2_1_0_0_1_n_n_wf : DotDims.WF S12000x16 S16x2 S12000x2 [1] [0] [0] [1] [] []
  gather_S300000x2_S9900000x1_S9900000x2_1_0_n_n_0_1_12_wf : GatherDims.WF S300000x2 S9900000x1 S9900000x2 [1] [0] [] [0] [] 1 ![1, 2]
  scatter_S300000x2_S9900000x1_S9900000x2_1_0_0_1_wf : ScatterDims.WF S300000x2 S9900000x1 S9900000x2 [1] [0] [0] 1
  scatter_S512_S300000x1_S300000_n_0_0_1_wf : ScatterDims.WF S512 S300000x1 S300000 [] [0] [0] 1
  scatter_S512x2_S300000x1_S300000x2_1_0_0_1_wf : ScatterDims.WF S512x2 S300000x1 S300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x128.size a ≤ S300000x128.size a
  hwx0_0 : ∀ i : grid0.Coords, EltTy.bits .f32 = 32 ∨ (Rect.block (s := S300000x128) S12000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12000x16.size a ≤ S300000x16.size a
  hwx0_2 : ∀ i : grid0.Coords, EltTy.bits .f32 = 32 ∨ (Rect.block (s := S300000x16) S12000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6600x16.size a ≤ S9900000x16.size a
  hwx1_0 : ∀ i : grid1.Coords, EltTy.bits .f32 = 32 ∨ (Rect.block (s := S9900000x16) S6600x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6600x1.size a ≤ S9900000x1.size a
  hwx1_1 : ∀ i : grid1.Coords, EltTy.bits .f32 = 32 ∨ (Rect.block (s := S9900000x1) S6600x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6600x16.size a ≤ S9900000x16.size a
  hwx1_2 : ∀ i : grid1.Coords, EltTy.bits .f32 = 32 ∨ (Rect.block (s := S9900000x16) S6600x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12000x16.size a ≤ S300000x16.size a
  hwx2_0 : ∀ i : grid2.Coords, EltTy.bits .f32 = 32 ∨ (Rect.block (s := S300000x16) S12000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S12000x16.size a ≤ S300000x16.size a
  hwx2_2 : ∀ i : grid2.Coords, EltTy.bits .f32 = 32 ∨ (Rect.block (s := S300000x16) S12000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12000x16.size a ≤ S300000x16.size a
  hwx3_0 : ∀ i : grid3.Coords, EltTy.bits .f32 = 32 ∨ (Rect.block (s := S300000x16) S12000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x2.size a ≤ S16x2.size a
  hwx3_1 : ∀ i : grid3.Coords, EltTy.bits .f32 = 32 ∨ (Rect.block (s := S16x2) S16x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S12000x2.size a ≤ S300000x2.size a
  hwx3_2 : ∀ i : grid3.Coords, EltTy.bits .f32 = 32 ∨ (Rect.block (s := S300000x2) S12000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6600x2.size a ≤ S9900000x2.size a
  hwx4_0 : ∀ i : grid4.Coords, EltTy.bits .f32 = 32 ∨ (Rect.block (s := S9900000x2) S6600x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6600x1.size a ≤ S9900000x1.size a
  hwx4_1 : ∀ i : grid4.Coords, EltTy.bits .f32 = 32 ∨ (Rect.block (s := S9900000x1) S6600x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6600x2.size a ≤ S9900000x2.size a
  hwx4_2 : ∀ i : grid4.Coords, EltTy.bits .f32 = 32 ∨ (Rect.block (s := S9900000x2) S6600x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12000x2.size a ≤ S300000x2.size a
  hwx5_0 : ∀ i : grid5.Coords, EltTy.bits .f32 = 32 ∨ (Rect.block (s := S300000x2) S12000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S12000x2.size a ≤ S300000x2.size a
  hwx5_2 : ∀ i : grid5.Coords, EltTy.bits .f32 = 32 ∨ (Rect.block (s := S300000x2) S12000x2.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x2.size a ≤ S512x2.size a
  hwx6_0 : ∀ i : grid6.Coords, EltTy.bits .f32 = 32 ∨ (Rect.block (s := S512x2) S512x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x1.size a ≤ S512x1.size a
  hwx6_1 : ∀ i : grid6.Coords, EltTy.bits .f32 = 32 ∨ (Rect.block (s := S512x1) S512x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x2.size a ≤ S512x2.size a
  hwx6_2 : ∀ i : grid6.Coords, EltTy.bits .f32 = 32 ∨ (Rect.block (s := S512x2) S512x2.size (cc6_transform_2 i) (hinb6_2 i)).WholeWords (EltTy.packing .f32)

variable [Facts₀]

def scatter_S300000_S9900000x1_S9900000_n_0_0_1 : ScatterDims S300000 S9900000x1 S9900000 where
  updateWindowDims := []
  insertedWindowDims := [0]
  scatterDimsToOperandDims := [0]
  indexVectorDim := 1
  wf := scatter_S300000_S9900000x1_S9900000_n_0_0_1_wf
def gather_S300000_S9900000x1_S9900000_n_0_n_n_0_1_1 : GatherDims S300000 S9900000x1 S9900000 where
  offsetDims := []
  collapsedSliceDims := [0]
  operandBatchingDims := []
  startIndicesBatchingDims := []
  startIndexMap := [0]
  indexVectorDim := 1
  sliceSizes := ![1]
  wf := gather_S300000_S9900000x1_S9900000_n_0_n_n_0_1_1_wf
def dot_S12000x128_S128x16_S12000x16_1_0_0_1_n_n : DotDims S12000x128 S128x16 S12000x16 where
  lhsContracting := [1]
  rhsContracting := [0]
  lhsNonContracting := [0]
  rhsNonContracting := [1]
  lhsBatch := []
  rhsBatch := []
  wf := dot_S12000x128_S128x16_S12000x16_1_0_0_1_n_n_wf
def gather_S300000x16_S9900000x1_S9900000x16_1_0_n_n_0_1_116 : GatherDims S300000x16 S9900000x1 S9900000x16 where
  offsetDims := [1]
  collapsedSliceDims := [0]
  operandBatchingDims := []
  startIndicesBatchingDims := []
  startIndexMap := [0]
  indexVectorDim := 1
  sliceSizes := ![1, 16]
  wf := gather_S300000x16_S9900000x1_S9900000x16_1_0_n_n_0_1_116_wf
def scatter_S300000x16_S9900000x1_S9900000x16_1_0_0_1 : ScatterDims S300000x16 S9900000x1 S9900000x16 where
  updateWindowDims := [1]
  insertedWindowDims := [0]
  scatterDimsToOperandDims := [0]
  indexVectorDim := 1
  wf := scatter_S300000x16_S9900000x1_S9900000x16_1_0_0_1_wf
def dot_S12000x16_S16x2_S12000x2_1_0_0_1_n_n : DotDims S12000x16 S16x2 S12000x2 where
  lhsContracting := [1]
  rhsContracting := [0]
  lhsNonContracting := [0]
  rhsNonContracting := [1]
  lhsBatch := []
  rhsBatch := []
  wf := dot_S12000x16_S16x2_S12000x2_1_0_0_1_n_n_wf
def gather_S300000x2_S9900000x1_S9900000x2_1_0_n_n_0_1_12 : GatherDims S300000x2 S9900000x1 S9900000x2 where
  offsetDims := [1]
  collapsedSliceDims := [0]
  operandBatchingDims := []
  startIndicesBatchingDims := []
  startIndexMap := [0]
  indexVectorDim := 1
  sliceSizes := ![1, 2]
  wf := gather_S300000x2_S9900000x1_S9900000x2_1_0_n_n_0_1_12_wf
def scatter_S300000x2_S9900000x1_S9900000x2_1_0_0_1 : ScatterDims S300000x2 S9900000x1 S9900000x2 where
  updateWindowDims := [1]
  insertedWindowDims := [0]
  scatterDimsToOperandDims := [0]
  indexVectorDim := 1
  wf := scatter_S300000x2_S9900000x1_S9900000x2_1_0_0_1_wf
def scatter_S512_S300000x1_S300000_n_0_0_1 : ScatterDims S512 S300000x1 S300000 where
  updateWindowDims := []
  insertedWindowDims := [0]
  scatterDimsToOperandDims := [0]
  indexVectorDim := 1
  wf := scatter_S512_S300000x1_S300000_n_0_0_1_wf
def scatter_S512x2_S300000x1_S300000x2_1_0_0_1 : ScatterDims S512x2 S300000x1 S300000x2 where
  updateWindowDims := [1]
  insertedWindowDims := [0]
  scatterDimsToOperandDims := [0]
  indexVectorDim := 1
  wf := scatter_S512x2_S300000x1_S300000x2_1_0_0_1_wf

abbrev win0_0 : Pipeline.Window sig grid0 :=
  Pipeline.Window.ofSpec (Memref.whole main_arg0) S12000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S12000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S6600x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S6600x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S6600x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S12000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S12000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S12000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S12000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S6600x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S6600x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S6600x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S12000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S12000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v66) S512x2.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v67) S512x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v68) S512x2.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S300000x128 : Shape := ⟨2, ![300000, 128]⟩
abbrev S2x9600000 : Shape := ⟨2, ![2, 9600000]⟩
abbrev S300000 : Shape := ⟨1, ![300000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x9600000 : Shape := ⟨2, ![1, 9600000]⟩
abbrev S9600000 : Shape := ⟨1, ![9600000]⟩
abbrev S9900000 : Shape := ⟨1, ![9900000]⟩
abbrev S_ : Shape := ⟨0, ![]⟩
abbrev S9900000x1 : Shape := ⟨2, ![9900000, 1]⟩
abbrev S300000x16 : Shape := ⟨2, ![300000, 16]⟩
abbrev S9900000x16 : Shape := ⟨2, ![9900000, 16]⟩
abbrev S1x16 : Shape := ⟨2, ![1, 16]⟩
abbrev S300000x2 : Shape := ⟨2, ![300000, 2]⟩
abbrev S9900000x2 : Shape := ⟨2, ![9900000, 2]⟩
abbrev S1x2 : Shape := ⟨2, ![1, 2]⟩
abbrev S512 : Shape := ⟨1, ![512]⟩
abbrev S300000x1 : Shape := ⟨2, ![300000, 1]⟩
abbrev S512x2 : Shape := ⟨2, ![512, 2]⟩
abbrev S512x1 : Shape := ⟨2, ![512, 1]⟩

abbrev nBuf : Space → Nat
  | .hbm => 121
  | .vmem => 0
  | .smem => 0
  | _ => 0

abbrev bufTy : (tb : Table) → Fin (tcTables nBuf tb) → BufTy
  | .hbm, ⟨0, _⟩ => ⟨S300000x128, .f32⟩
  | .hbm, ⟨1, _⟩ => ⟨S2x9600000, .i32⟩
  | .hbm, ⟨2, _⟩ => ⟨S300000, .i32⟩
  | .hbm, ⟨3, _⟩ => ⟨S128x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S300000, .i32⟩
  | .hbm, ⟨8, _⟩ => ⟨S1x9600000, .i32⟩
  | .hbm, ⟨9, _⟩ => ⟨S9600000, .i32⟩
  | .hbm, ⟨10, _⟩ => ⟨S9900000, .i32⟩
  | .hbm, ⟨11, _⟩ => ⟨S1x9600000, .i32⟩
  | .hbm, ⟨12, _⟩ => ⟨S9600000, .i32⟩
  | .hbm, ⟨13, _⟩ => ⟨S9900000, .i32⟩
  | .hbm, ⟨14, _⟩ => ⟨S_, .f32⟩
  | .hbm, ⟨15, _⟩ => ⟨S9900000, .f32⟩
  | .hbm, ⟨16, _⟩ => ⟨S_, .f32⟩
  | .hbm, ⟨17, _⟩ => ⟨S300000, .f32⟩
  | .hbm, ⟨18, _⟩ => ⟨S9900000x1, .i32⟩
  | .hbm, ⟨19, _⟩ => ⟨S300000, .f32⟩
  | .hbm, ⟨20, _⟩ => ⟨S_, .f32⟩
  | .hbm, ⟨21, _⟩ => ⟨S300000, .f32⟩
  | .hbm, ⟨22, _⟩ => ⟨S300000, .i1⟩
  | .hbm, ⟨23, _⟩ => ⟨S300000, .f32⟩
  | .hbm, ⟨24, _⟩ => ⟨S_, .f32⟩
  | .hbm, ⟨25, _⟩ => ⟨S_, .f32⟩
  | .hbm, ⟨26, _⟩ => ⟨S300000, .f32⟩
  | .hbm, ⟨27, _⟩ => ⟨S300000, .f32⟩
  | .hbm, ⟨28, _⟩ => ⟨S_, .i32⟩
  | .hbm, ⟨29, _⟩ => ⟨S9900000, .i32⟩
  | .hbm, ⟨30, _⟩ => ⟨S9900000, .i1⟩
  | .hbm, ⟨31, _⟩ => ⟨S_, .i32⟩
  | .hbm, ⟨32, _⟩ => ⟨S9900000, .i32⟩
  | .hbm, ⟨33, _⟩ => ⟨S9900000, .i32⟩
  | .hbm, ⟨34, _⟩ => ⟨S9900000, .i32⟩
  | .hbm, ⟨35, _⟩ => ⟨S9900000x1, .i32⟩
  | .hbm, ⟨36, _⟩ => ⟨S9900000, .f32⟩
  | .hbm, ⟨37, _⟩ => ⟨S_, .i32⟩
  | .hbm, ⟨38, _⟩ => ⟨S9900000, .i32⟩
  | .hbm, ⟨39, _⟩ => ⟨S9900000, .i1⟩
  | .hbm, ⟨40, _⟩ => ⟨S_, .i32⟩
  | .hbm, ⟨41, _⟩ => ⟨S9900000, .i32⟩
  | .hbm, ⟨42, _⟩ => ⟨S9900000, .i32⟩
  | .hbm, ⟨43, _⟩ => ⟨S9900000, .i32⟩
  | .hbm, ⟨44, _⟩ => ⟨S9900000x1, .i32⟩
  | .hbm, ⟨45, _⟩ => ⟨S9900000, .f32⟩
  | .hbm, ⟨46, _⟩ => ⟨S9900000, .f32⟩
  | .hbm, ⟨47, _⟩ => ⟨S300000x16, .f32⟩
  | .hbm, ⟨48, _⟩ => ⟨S_, .i32⟩
  | .hbm, ⟨49, _⟩ => ⟨S9900000, .i32⟩
  | .hbm, ⟨50, _⟩ => ⟨S9900000, .i1⟩
  | .hbm, ⟨51, _⟩ => ⟨S_, .i32⟩
  | .hbm, ⟨52, _⟩ => ⟨S9900000, .i32⟩
  | .hbm, ⟨53, _⟩ => ⟨S9900000, .i32⟩
  | .hbm, ⟨54, _⟩ => ⟨S9900000, .i32⟩
  | .hbm, ⟨55, _⟩ => ⟨S9900000x1, .i32⟩
  | .hbm, ⟨56, _⟩ => ⟨S9900000x16, .f32⟩
  | .hbm, ⟨57, _⟩ => ⟨S9900000x1, .f32⟩
  | .hbm, ⟨58, _⟩ => ⟨S9900000x16, .f32⟩
  | .hbm, ⟨59, _⟩ => ⟨S9900000x16, .f32⟩
  | .hbm, ⟨60, _⟩ => ⟨S_, .f32⟩
  | .hbm, ⟨61, _⟩ => ⟨S300000x16, .f32⟩
  | .hbm, ⟨62, _⟩ => ⟨S9900000x1, .i32⟩
  | .hbm, ⟨63, _⟩ => ⟨S300000x16, .f32⟩
  | .hbm, ⟨64, _⟩ => ⟨S1x16, .f32⟩
  | .hbm, ⟨65, _⟩ => ⟨S300000x16, .f32⟩
  | .hbm, ⟨66, _⟩ => ⟨S300000x16, .f32⟩
  | .hbm, ⟨67, _⟩ => ⟨S_, .f32⟩
  | .hbm, ⟨68, _⟩ => ⟨S300000x16, .f32⟩
  | .hbm, ⟨69, _⟩ => ⟨S300000x16, .f32⟩
  | .hbm, ⟨70, _⟩ => ⟨S300000x2, .f32⟩
  | .hbm, ⟨71, _⟩ => ⟨S_, .i32⟩
  | .hbm, ⟨72, _⟩ => ⟨S9900000, .i32⟩
  | .hbm, ⟨73, _⟩ => ⟨S9900000, .i1⟩
  | .hbm, ⟨74, _⟩ => ⟨S_, .i32⟩
  | .hbm, ⟨75, _⟩ => ⟨S9900000, .i32⟩
  | .hbm, ⟨76, _⟩ => ⟨S9900000, .i32⟩
  | .hbm, ⟨77, _⟩ => ⟨S9900000, .i32⟩
  | .hbm, ⟨78, _⟩ => ⟨S9900000x1, .i32⟩
  | .hbm, ⟨79, _⟩ => ⟨S9900000x2, .f32⟩
  | .hbm, ⟨80, _⟩ => ⟨S9900000x1, .f32⟩
  | .hbm, ⟨81, _⟩ => ⟨S9900000x2, .f32⟩
  | .hbm, ⟨82, _⟩ => ⟨S9900000x2, .f32⟩
  | .hbm, ⟨83, _⟩ => ⟨S_, .f32⟩
  | .hbm, ⟨84, _⟩ => ⟨S300000x2, .f32⟩
  | .hbm, ⟨85, _⟩ => ⟨S9900000x1, .i32⟩
  | .hbm, ⟨86, _⟩ => ⟨S300000x2, .f32⟩
  | .hbm, ⟨87, _⟩ => ⟨S1x2, .f32⟩
  | .hbm, ⟨88, _⟩ => ⟨S300000x2, .f32⟩
  | .hbm, ⟨89, _⟩ => ⟨S300000x2, .f32⟩
  | .hbm, ⟨90, _⟩ => ⟨S_, .f32⟩
  | .hbm, ⟨91, _⟩ => ⟨S300000, .f32⟩
  | .hbm, ⟨92, _⟩ => ⟨S_, .f32⟩
  | .hbm, ⟨93, _⟩ => ⟨S512, .f32⟩
  | .hbm, ⟨94, _⟩ => ⟨S300000x1, .i32⟩
  | .hbm, ⟨95, _⟩ => ⟨S512, .f32⟩
  | .hbm, ⟨96, _⟩ => ⟨S_, .f32⟩
  | .hbm, ⟨97, _⟩ => ⟨S512x2, .f32⟩
  | .hbm, ⟨98, _⟩ => ⟨S300000x1, .i32⟩
  | .hbm, ⟨99, _⟩ => ⟨S512x2, .f32⟩
  | .hbm, ⟨100, _⟩ => ⟨S_, .f32⟩
  | .hbm, ⟨101, _⟩ => ⟨S512, .f32⟩
  | .hbm, ⟨102, _⟩ => ⟨S512, .f32⟩
  | .hbm, ⟨103, _⟩ => ⟨S512x1, .f32⟩
  | .hbm, ⟨104, _⟩ => ⟨S512x2, .f32⟩
  | .hbm, ⟨105, _⟩ => ⟨S512x2, .f32⟩
  | .hbm, ⟨106, _⟩ => ⟨S_, .f32⟩
  | .hbm, ⟨107, _⟩ => ⟨S512, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x2, .f32⟩
  | .hbm, ⟨113, _⟩ => ⟨S512x2, .f32⟩
  | .hbm, ⟨114, _⟩ => ⟨S512x2, .f32⟩
  | .hbm, ⟨115, _⟩ => ⟨S_, .f32⟩
  | .hbm, ⟨116, _⟩ => ⟨S512, .f32⟩
  | .hbm, ⟨117, _⟩ => ⟨S512x1, .f32⟩
  | .hbm, ⟨118, _⟩ => ⟨S512x1, .f32⟩
  | .hbm, ⟨119, _⟩ => ⟨S512x2, .f32⟩
  | .hbm, ⟨120, _⟩ => ⟨S512x2, .f32⟩
  | _, _ => ⟨S300000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call2_cst : Ref sig .tc := ⟨.hbm, 106, rfl⟩
abbrev main_call2_v0 : Ref sig .tc := ⟨.hbm, 107, rfl⟩
abbrev main_call2_cst_0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_cst_1 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_v77 : Ref sig .tc := ⟨.hbm, 120, rfl⟩

abbrev nD : Nat := 1
abbrev τ : Topo := Topo.v7x

variable {F : FTy → Type} [FloatOps F]

class Facts₀ : Prop where
  slices_S2x9600000_S1x9600000_0_0 : S2x9600000.Slices ![0, 0] S1x9600000
  shapeCasts_S1x9600000_S9600000 : S1x9600000.ShapeCasts S9600000
  concatenates_S9600000_S300000_S9900000_d0 : Shape.Concatenates [S9600000, S300000] S9900000 0
  slices_S2x9600000_S1x9600000_1_0 : S2x9600000.Slices ![1, 0] S1x9600000
  bcast_S_S9900000 : S_.BroadcastsInDim S9900000 (![] : Fin 0 → Fin S9900000.rank)
  bcast_S_S300000 : S_.BroadcastsInDim S300000 (![] : Fin 0 → Fin S300000.rank)
  bcast_S9900000_S9900000x1_0 : S9900000.BroadcastsInDim S9900000x1 (![0] : Fin 1 → Fin S9900000x1.rank)
  bcast_S9900000x1_S9900000x16_0_1 : S9900000x1.BroadcastsInDim S9900000x16 (![0, 1] : Fin 2 → Fin S9900000x16.rank)
  bcast_S_S300000x16 : S_.BroadcastsInDim S300000x16 (![] : Fin 0 → Fin S300000x16.rank)
  bcast_S16_S1x16_1 : S16.BroadcastsInDim S1x16 (![1] : Fin 1 → Fin S1x16.rank)
  bcast_S1x16_S300000x16_0_1 : S1x16.BroadcastsInDim S300000x16 (![0, 1] : Fin 2 → Fin S300000x16.rank)
  bcast_S9900000x1_S9900000x2_0_1 : S9900000x1.BroadcastsInDim S9900000x2 (![0, 1] : Fin 2 → Fin S9900000x2.rank)
  bcast_S_S300000x2 : S_.BroadcastsInDim S300000x2 (![] : Fin 0 → Fin S300000x2.rank)
  bcast_S2_S1x2_1 : S2.BroadcastsInDim S1x2 (![1] : Fin 1 → Fin S1x2.rank)
  bcast_S1x2_S300000x2_0_1 : S1x2.BroadcastsInDim S300000x2 (![0, 1] : Fin 2 → Fin S300000x2.rank)
  bcast_S_S512 : S_.BroadcastsInDim S512 (![] : Fin 0 → Fin S512.rank)
  bcast_S300000_S300000x1_0 : S300000.BroadcastsInDim S300000x1 (![0] : Fin 1 → Fin S300000x1.rank)
  bcast_S_S512x2 : S_.BroadcastsInDim S512x2 (![] : Fin 0 → Fin S512x2.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  reducesTo_S512x2_S512_d1 : S512x2.ReducesTo [1] S512
  h_S_ : 0 < S_.numel
  scatter_S300000_S9900000x1_S9900000_n_0_0_1_wf : ScatterDims.WF S300000 S9900000x1 S9900000 [] [0] [0] 1
  gather_S300000_S9900000x1_S9900000_n_0_n_n_0_1_1_wf : GatherDims.WF S300000 S9900000x1 S9900000 [] [0] [] [0] [] 1 ![1]
  dot_S300000x128_S128x16_S300000x16_1_0_0_1_n_n_wf : DotDims.WF S300000x128 S128x16 S300000x16 [1] [0] [0] [1] [] []
  gather_S300000x16_S9900000x1_S9900000x16_1_0_n_n_0_1_116_wf : GatherDims.WF S300000x16 S9900000x1 S9900000x16 [1] [0] [] [0] [] 1 ![1, 16]
  scatter_S300000x16_S9900000x1_S9900000x16_1_0_0_1_wf : ScatterDims.WF S300000x16 S9900000x1 S9900000x16 [1] [0] [0] 1
  dot_S300000x16_S16x2_S300000x2_1_0_0_1_n_n_wf : DotDims.WF S300000x16 S16x2 S300000x2 [1] [0] [0] [1] [] []
  gather_S300000x2_S9900000x1_S9900000x2_1_0_n_n_0_1_12_wf : GatherDims.WF S300000x2 S9900000x1 S9900000x2 [1] [0] [] [0] [] 1 ![1, 2]
  scatter_S300000x2_S9900000x1_S9900000x2_1_0_0_1_wf : ScatterDims.WF S300000x2 S9900000x1 S9900000x2 [1] [0] [0] 1
  scatter_S512_S300000x1_S300000_n_0_0_1_wf : ScatterDims.WF S512 S300000x1 S300000 [] [0] [0] 1
  scatter_S512x2_S300000x1_S300000x2_1_0_0_1_wf : ScatterDims.WF S512x2 S300000x1 S300000x2 [1] [0] [0] 1

variable [Facts₀]

def scatter_S300000_S9900000x1_S9900000_n_0_0_1 : ScatterDims S300000 S9900000x1 S9900000 where
  updateWindowDims := []
  insertedWindowDims := [0]
  scatterDimsToOperandDims := [0]
  indexVectorDim := 1
  wf := scatter_S300000_S9900000x1_S9900000_n_0_0_1_wf
def gather_S300000_S9900000x1_S9900000_n_0_n_n_0_1_1 : GatherDims S300000 S9900000x1 S9900000 where
  offsetDims := []
  collapsedSliceDims := [0]
  operandBatchingDims := []
  startIndicesBatchingDims := []
  startIndexMap := [0]
  indexVectorDim := 1
  sliceSizes := ![1]
  wf := gather_S300000_S9900000x1_S9900000_n_0_n_n_0_1_1_wf
def dot_S300000x128_S128x16_S300000x16_1_0_0_1_n_n : DotDims S300000x128 S128x16 S300000x16 where
  lhsContracting := [1]
  rhsContracting := [0]
  lhsNonContracting := [0]
  rhsNonContracting := [1]
  lhsBatch := []
  rhsBatch := []
  wf := dot_S300000x128_S128x16_S300000x16_1_0_0_1_n_n_wf
def gather_S300000x16_S9900000x1_S9900000x16_1_0_n_n_0_1_116 : GatherDims S300000x16 S9900000x1 S9900000x16 where
  offsetDims := [1]
  collapsedSliceDims := [0]
  operandBatchingDims := []
  startIndicesBatchingDims := []
  startIndexMap := [0]
  indexVectorDim := 1
  sliceSizes := ![1, 16]
  wf := gather_S300000x16_S9900000x1_S9900000x16_1_0_n_n_0_1_116_wf
def scatter_S300000x16_S9900000x1_S9900000x16_1_0_0_1 : ScatterDims S300000x16 S9900000x1 S9900000x16 where
  updateWindowDims := [1]
  insertedWindowDims := [0]
  scatterDimsToOperandDims := [0]
  indexVectorDim := 1
  wf := scatter_S300000x16_S9900000x1_S9900000x16_1_0_0_1_wf
def dot_S300000x16_S16x2_S300000x2_1_0_0_1_n_n : DotDims S300000x16 S16x2 S300000x2 where
  lhsContracting := [1]
  rhsContracting := [0]
  lhsNonContracting := [0]
  rhsNonContracting := [1]
  lhsBatch := []
  rhsBatch := []
  wf := dot_S300000x16_S16x2_S300000x2_1_0_0_1_n_n_wf
def gather_S300000x2_S9900000x1_S9900000x2_1_0_n_n_0_1_12 : GatherDims S300000x2 S9900000x1 S9900000x2 where
  offsetDims := [1]
  collapsedSliceDims := [0]
  operandBatchingDims := []
  startIndicesBatchingDims := []
  startIndexMap := [0]
  indexVectorDim := 1
  sliceSizes := ![1, 2]
  wf := gather_S300000x2_S9900000x1_S9900000x2_1_0_n_n_0_1_12_wf
def scatter_S300000x2_S9900000x1_S9900000x2_1_0_0_1 : ScatterDims S300000x2 S9900000x1 S9900000x2 where
  updateWindowDims := [1]
  insertedWindowDims := [0]
  scatterDimsToOperandDims := [0]
  indexVectorDim := 1
  wf := scatter_S300000x2_S9900000x1_S9900000x2_1_0_0_1_wf
def scatter_S512_S300000x1_S300000_n_0_0_1 : ScatterDims S512 S300000x1 S300000 where
  updateWindowDims := []
  insertedWindowDims := [0]
  scatterDimsToOperandDims := [0]
  indexVectorDim := 1
  wf := scatter_S512_S300000x1_S300000_n_0_0_1_wf
def scatter_S512x2_S300000x1_S300000x2_1_0_0_1 : ScatterDims S512x2 S300000x1 S300000x2 where
  updateWindowDims := [1]
  insertedWindowDims := [0]
  scatterDimsToOperandDims := [0]
  indexVectorDim := 1
  wf := scatter_S512x2_S300000x1_S300000x2_1_0_0_1_wf

class Facts : Prop extends Facts₀ where

variable [Facts]
-- ==== Proof.KernelRun.lean ====
/-
  The idealized kernel's run with its result named. Every weakly fair execution of the program — seven pipelined
  calls among stretches of host operations — terminates without a fault; at the end every buffer that outlives a
  call holds what the fold of the fifteen segments leaves in it. Read at the result buffer that is the last
  boundary's contents there (the last call's output array); read at an argument it is the launch contents, since
  no segment writes an argument.
-/
import proofs.«150239_j11175504904923_2_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's segments; the last thread state holds every unscoped buffer at the last
    boundary's contents, and the final memory is read against it — the result buffer as it stands, each argument
    walked back through the fold to the launch memory. -/
theorem run_result : θ_run defs (onTc (τ := τ) (main (F := F))) ⟨m, fun _ => 0, ρ⟩ (fun r => ∀ c : Dev nD,
      r.2.mem ((c.tc : Thread nD τ).loc main_v68) = W15 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v68 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.Outcome

end
-- ==== Proof.FlowHost.lean ====
/-
  The host operations between the calls, read stretch by stretch from ANY contents `W` at the stretch's entry.

  The kernel's program and the reference apply the same host operations — slices, concatenations, comparisons,
  gathers and scatter-adds — to their intermediate arrays. Each lemma here says: if the buffers a stretch reads
  hold the reference's stages of some arguments, the buffer it writes holds the reference's next stage of the same
  arguments. Nothing is computed: the stretch's operations are laid out as one term and that term is, by unfolding
  the stage's definition one level at a time, the stage. The scatter-adds and gathers are never opened.

  `Kept` bundles the seven buffers that outlive the calls — the two endpoint vectors of the edges, the edge
  normalisers as a column, the node-to-graph map, and three of the weights — with the fact that no later stretch
  writes any of them.
-/
import proofs.«150239_j11175504904923_2_alg».proof.Proof.Gen.KernelIdeal.Launch
import proofs.«150239_j11175504904923_2_alg».proof.Proof.ReferenceReadPatched
import Idealize.ShloMosaic.Lib.StableHlo.Run
import Idealize.ShloMosaic.PureOps.Ideal

set_option maxRecDepth 16384

noncomputable section

namespace Cert.KernelIdeal.Flow

open Cert.KernelIdeal Cert.KernelIdeal.Gen Idealize.ShloMosaic Idealize.ShloMosaic.TcCoe Idealize.SL.Sem
open Idealize.ShloMosaic.StableHlo
open Cert.ReferenceIdeal.Read

variable (W : Valuation τ sig (Elt Ideal))
variable (x0 : (⟨Cert.ReferenceIdeal.S300000x128, .f32⟩ : BufTy).Contents (Elt Ideal))
  (x1 : (⟨Cert.ReferenceIdeal.S2x9600000, .i32⟩ : BufTy).Contents (Elt Ideal))
  (x2 : (⟨Cert.ReferenceIdeal.S300000, .i32⟩ : BufTy).Contents (Elt Ideal))
  (x3 : (⟨Cert.ReferenceIdeal.S128x16, .f32⟩ : BufTy).Contents (Elt Ideal))
  (x4 : (⟨Cert.ReferenceIdeal.S16, .f32⟩ : BufTy).Contents (Elt Ideal))
  (x5 : (⟨Cert.ReferenceIdeal.S16x2, .f32⟩ : BufTy).Contents (Elt Ideal))
  (x6 : (⟨Cert.ReferenceIdeal.S2, .f32⟩ : BufTy).Contents (Elt Ideal))

/-! ## Before the first call: the edges' endpoints, the degrees and the normalisers -/

/-- The source endpoints, self loops appended. -/
theorem host0_src : after hostOps0 W (Proc.devRef .tc main_v3) = val_main_v3 (F := Ideal) (W (Proc.devRef .tc main_arg1)) := by
  after_results_simp
  rfl

/-- The destination endpoints, self loops appended. -/
theorem host0_dst : after hostOps0 W (Proc.devRef .tc main_v7) = val_main_v6 (F := Ideal) (W (Proc.devRef .tc main_arg1)) := by
  after_results_simp
  rfl

/-- Which nodes have a positive degree. -/
theorem host0_pos : after hostOps0 W (Proc.devRef .tc main_v13) = val_main_v12 (F := Ideal) (W (Proc.devRef .tc main_arg1)) := by
  after_results_simp
  rfl

/-- The degrees' reciprocal square roots. -/
theorem host0_rsq : after hostOps0 W (Proc.devRef .tc main_v14) = val_main_v13 (F := Ideal) (W (Proc.devRef .tc main_arg1)) := by
  after_results_simp
  rfl

/-- The zero that replaces the reciprocal root of a zero degree. -/
theorem host0_zero : after hostOps0 W (Proc.devRef .tc main_cst_2) = val_main_cst_2 (F := Ideal) := by
  after_results_simp
  rfl

/-! ### The select of the reciprocal roots (a called function)

The call's operations are stated over references that carry their tensor type, and move every value between that
type and the buffer's own along the equation of the two; at a literal reference the two types are the same and the
move is the identity. -/

/-- A typed reference's two transports cancel. -/
theorem of_to {T : BufTy} (x : TRef sig T) (v : T.Contents (Elt Ideal)) : x.ofBuf (x.toBuf v) = v := by
  obtain ⟨r, rfl, _, _⟩ := x
  rfl

theorem ofBuf_mask (h1 h2 h3) (v : (⟨S300000, .i1⟩ : BufTy).Contents (Elt Ideal)) :
    (TRef.of (T := ⟨S300000, .i1⟩) main_v13 h1 h2 h3).ofBuf (Val := Elt Ideal) v = v := rfl
theorem ofBuf_nodes (h1 h2 h3) (v : (⟨S300000, .f32⟩ : BufTy).Contents (Elt Ideal)) :
    (TRef.of (T := ⟨S300000, .f32⟩) main_v14 h1 h2 h3).ofBuf (Val := Elt Ideal) v = v := rfl
theorem toBuf_nodes (h1 h2 h3) (v : (⟨S300000, .f32⟩ : BufTy).Contents (Elt Ideal)) :
    (TRef.of (T := ⟨S300000, .f32⟩) main_v15 h1 h2 h3).toBuf (Val := Elt Ideal) v = v := rfl
theorem ofBuf_scalar (h1 h2 h3) (v : (⟨S_, .f32⟩ : BufTy).Contents (Elt Ideal)) :
    (TRef.of (T := ⟨S_, .f32⟩) main_cst_2 h1 h2 h3).ofBuf (Val := Elt Ideal) v = v := rfl
theorem toBuf_scalar (h1 h2 h3) (v : (⟨S_, .f32⟩ : BufTy).Contents (Elt Ideal)) :
    (TRef.of (T := ⟨S_, .f32⟩) main_call0_v0 h1 h2 h3).toBuf (Val := Elt Ideal) v = v := rfl

/-- Each node's normaliser factor: the reciprocal root of its degree where the degree is positive, zero elsewhere. -/
theorem host01_dinv (hp : W (Proc.devRef .tc main_v13) = val_main_v12 (F := Ideal) x1)
    (hr : W (Proc.devRef .tc main_v14) = val_main_v13 (F := Ideal) x1)
    (hz : W (Proc.devRef .tc main_cst_2) = val_main_cst_2 (F := Ideal)) :
    after hostOps0_1 W (Proc.devRef .tc main_v15) = val_main_v14 (F := Ideal) x1 := by
  after_results_simp
  rw [hp, hr, hz, toBuf_nodes, ofBuf_mask, ofBuf_nodes, ofBuf_scalar, of_to, toBuf_scalar, ofBuf_scalar]
  rfl
  all_goals first | rfl | decide

/-- The call and the stretch after it write neither endpoint vector. -/
theorem host01_keep_src : after hostOps0_1 W (Proc.devRef .tc main_v3) = W (Proc.devRef .tc main_v3) := by
  after_results_simp
theorem host01_keep_dst : after hostOps0_1 W (Proc.devRef .tc main_v7) = W (Proc.devRef .tc main_v7) := by
  after_results_simp
theorem host02_keep_src : after hostOps0_2 W (Proc.devRef .tc main_v3) = W (Proc.devRef .tc main_v3) := by
  after_results_simp
theorem host02_keep_dst : after hostOps0_2 W (Proc.devRef .tc main_v7) = W (Proc.devRef .tc main_v7) := by
  after_results_simp

/-- None of the three stretches before the first call writes an argument. -/
theorem prefix_keep_arg0 : after hostOps0_2 (after hostOps0_1 (after hostOps0 W)) (Proc.devRef .tc main_arg0)
    = W (Proc.devRef .tc main_arg0) := by
  after_results_simp
theorem prefix_keep_arg2 : after hostOps0_2 (after hostOps0_1 (after hostOps0 W)) (Proc.devRef .tc main_arg2)
    = W (Proc.devRef .tc main_arg2) := by
  after_results_simp
theorem prefix_keep_arg3 : after hostOps0_2 (after hostOps0_1 (after hostOps0 W)) (Proc.devRef .tc main_arg3)
    = W (Proc.devRef .tc main_arg3) := by
  after_results_simp
theorem prefix_keep_arg4 : after hostOps0_2 (after hostOps0_1 (after hostOps0 W)) (Proc.devRef .tc main_arg4)
    = W (Proc.devRef .tc main_arg4) := by
  after_results_simp
theorem prefix_keep_arg5 : after hostOps0_2 (after hostOps0_1 (after hostOps0 W)) (Proc.devRef .tc main_arg5)
    = W (Proc.devRef .tc main_arg5) := by
  after_results_simp
theorem prefix_keep_arg6 : after hostOps0_2 (after hostOps0_1 (after hostOps0 W)) (Proc.devRef .tc main_arg6)
    = W (Proc.devRef .tc main_arg6) := by
  after_results_simp

/-- The edges' normalisers, one per edge (self loops included), as a column: the product of the two endpoints'
    reciprocal root degrees, each gathered at the endpoint's index brought into range. -/
theorem host02_norm (hs : W (Proc.devRef .tc main_v3) = val_main_v3 (F := Ideal) x1)
    (hd : W (Proc.devRef .tc main_v7) = val_main_v6 (F := Ideal) x1)
    (hv : W (Proc.devRef .tc main_v15) = val_main_v14 (F := Ideal) x1) :
    after hostOps0_2 W (Proc.devRef .tc main_v31)
      = shapeCast S9900000x1 (val_main_v29 (F := Ideal) x1) shapeCasts_S9900000_S9900000x1 := by
  after_results_simp
  rw [hs, hd, hv]
  rfl

/-! ## Between the calls -/

/-- The first layer's rows gathered at the source endpoints. -/
theorem host1_gather (hs : W (Proc.devRef .tc main_v3) = val_main_v3 (F := Ideal) x1)
    (hh : W (Proc.devRef .tc main_v32) = val_main_v30 (F := Ideal) x0 x3) :
    after hostOps1 W (Proc.devRef .tc main_v39) = val_main_v37 (F := Ideal) x0 x1 x3 := by
  after_results_simp
  rw [hs, hh]
  rfl

/-- The first layer's messages summed into their destination nodes. -/
theorem host2_sum (hd : W (Proc.devRef .tc main_v7) = val_main_v6 (F := Ideal) x1)
    (hm : W (Proc.devRef .tc main_v40) = val_main_v40 (F := Ideal) x0 x1 x3) :
    after hostOps2 W (Proc.devRef .tc main_v43) = val_main_v43 (F := Ideal) x0 x1 x3 := by
  after_results_simp
  rw [hd, hm]
  rfl

/-- The first bias as one row. -/
theorem host2_bias : after hostOps2 W (Proc.devRef .tc main_v44)
    = shapeCast S1x16 (W (Proc.devRef .tc main_arg4)) shapeCasts_S16_S1x16 := by
  after_results_simp
  rfl

/-- The second layer's rows gathered at the source endpoints. -/
theorem host4_gather (hs : W (Proc.devRef .tc main_v3) = val_main_v3 (F := Ideal) x1)
    (hh : W (Proc.devRef .tc main_v46) = val_main_v48 (F := Ideal) x0 x1 x3 x4 x5) :
    after hostOps4 W (Proc.devRef .tc main_v53) = val_main_v55 (F := Ideal) x0 x1 x3 x4 x5 := by
  after_results_simp
  rw [hs, hh]
  rfl

/-- The second layer's messages summed into their destination nodes. -/
theorem host5_sum (hd : W (Proc.devRef .tc main_v7) = val_main_v6 (F := Ideal) x1)
    (hm : W (Proc.devRef .tc main_v54) = val_main_v58 (F := Ideal) x0 x1 x3 x4 x5) :
    after hostOps5 W (Proc.devRef .tc main_v57) = val_main_v61 (F := Ideal) x0 x1 x3 x4 x5 := by
  after_results_simp
  rw [hd, hm]
  rfl

/-- The second bias as one row. -/
theorem host5_bias : after hostOps5 W (Proc.devRef .tc main_v58)
    = shapeCast S1x2 (W (Proc.devRef .tc main_arg6)) shapeCasts_S2_S1x2 := by
  after_results_simp
  rfl

/-- The node logits summed into their graphs. -/
theorem host6_sums (hb : W (Proc.devRef .tc main_arg2) = x2)
    (hl : W (Proc.devRef .tc main_v59) = val_main_v64 (F := Ideal) x0 x1 x3 x4 x5 x6) :
    after hostOps6 W (Proc.devRef .tc main_v66) = val_main_v71 (F := Ideal) x0 x1 x2 x3 x4 x5 x6 := by
  after_results_simp
  rw [hb, hl]
  rfl

/-- The graphs' node counts, as a column. -/
theorem host6_counts (hb : W (Proc.devRef .tc main_arg2) = x2) :
    after hostOps6 W (Proc.devRef .tc main_v67)
      = shapeCast S512x1 (val_main_v68 (F := Ideal) x2) shapeCasts_S512_S512x1 := by
  after_results_simp
  rw [hb]
  rfl

/-! ## What outlives the calls -/

/-- The buffers later stretches and calls still read, at the reference's stages of the same arguments. -/
structure Kept (W : Valuation τ sig (Elt Ideal)) : Prop where
  src : W (Proc.devRef .tc main_v3) = val_main_v3 (F := Ideal) x1
  dst : W (Proc.devRef .tc main_v7) = val_main_v6 (F := Ideal) x1
  norm : W (Proc.devRef .tc main_v31) = shapeCast S9900000x1 (val_main_v29 (F := Ideal) x1) shapeCasts_S9900000_S9900000x1
  batch : W (Proc.devRef .tc main_arg2) = x2
  bias1 : W (Proc.devRef .tc main_arg4) = x4
  weight2 : W (Proc.devRef .tc main_arg5) = x5
  bias2 : W (Proc.devRef .tc main_arg6) = x6

variable {W x1 x2 x4 x5 x6}

/-- No operation of the stretch after the first call writes a kept buffer. -/
theorem Kept.host1 (h : Kept x1 x2 x4 x5 x6 W) : Kept x1 x2 x4 x5 x6 (after hostOps1 W) where
  src := (by after_results_simp : after hostOps1 W (Proc.devRef .tc main_v3) = W (Proc.devRef .tc main_v3)).trans h.src
  dst := (by after_results_simp : after hostOps1 W (Proc.devRef .tc main_v7) = W (Proc.devRef .tc main_v7)).trans h.dst
  norm := (by after_results_simp : after hostOps1 W (Proc.devRef .tc main_v31) = W (Proc.devRef .tc main_v31)).trans h.norm
  batch := (by after_results_simp : after hostOps1 W (Proc.devRef .tc main_arg2) = W (Proc.devRef .tc main_arg2)).trans h.batch
  bias1 := (by after_results_simp : after hostOps1 W (Proc.devRef .tc main_arg4) = W (Proc.devRef .tc main_arg4)).trans h.bias1
  weight2 := (by after_results_simp : after hostOps1 W (Proc.devRef .tc main_arg5) = W (Proc.devRef .tc main_arg5)).trans h.weight2
  bias2 := (by after_results_simp : after hostOps1 W (Proc.devRef .tc main_arg6) = W (Proc.devRef .tc main_arg6)).trans h.bias2

/-- Nor of the stretch after the second call. -/
theorem Kept.host2 (h : Kept x1 x2 x4 x5 x6 W) : Kept x1 x2 x4 x5 x6 (after hostOps2 W) where
  src := (by after_results_simp : after hostOps2 W (Proc.devRef .tc main_v3) = W (Proc.devRef .tc main_v3)).trans h.src
  dst := (by after_results_simp : after hostOps2 W (Proc.devRef .tc main_v7) = W (Proc.devRef .tc main_v7)).trans h.dst
  norm := (by after_results_simp : after hostOps2 W (Proc.devRef .tc main_v31) = W (Proc.devRef .tc main_v31)).trans h.norm
  batch := (by after_results_simp : after hostOps2 W (Proc.devRef .tc main_arg2) = W (Proc.devRef .tc main_arg2)).trans h.batch
  bias1 := (by after_results_simp : after hostOps2 W (Proc.devRef .tc main_arg4) = W (Proc.devRef .tc main_arg4)).trans h.bias1
  weight2 := (by after_results_simp : after hostOps2 W (Proc.devRef .tc main_arg5) = W (Proc.devRef .tc main_arg5)).trans h.weight2
  bias2 := (by after_results_simp : after hostOps2 W (Proc.devRef .tc main_arg6) = W (Proc.devRef .tc main_arg6)).trans h.bias2

/-- Nor of the stretch after the fourth call. -/
theorem Kept.host4 (h : Kept x1 x2 x4 x5 x6 W) : Kept x1 x2 x4 x5 x6 (after hostOps4 W) where
  src := (by after_results_simp : after hostOps4 W (Proc.devRef .tc main_v3) = W (Proc.devRef .tc main_v3)).trans h.src
  dst := (by after_results_simp : after hostOps4 W (Proc.devRef .tc main_v7) = W (Proc.devRef .tc main_v7)).trans h.dst
  norm := (by after_results_simp : after hostOps4 W (Proc.devRef .tc main_v31) = W (Proc.devRef .tc main_v31)).trans h.norm
  batch := (by after_results_simp : after hostOps4 W (Proc.devRef .tc main_arg2) = W (Proc.devRef .tc main_arg2)).trans h.batch
  bias1 := (by after_results_simp : after hostOps4 W (Proc.devRef .tc main_arg4) = W (Proc.devRef .tc main_arg4)).trans h.bias1
  weight2 := (by after_results_simp : after hostOps4 W (Proc.devRef .tc main_arg5) = W (Proc.devRef .tc main_arg5)).trans h.weight2
  bias2 := (by after_results_simp : after hostOps4 W (Proc.devRef .tc main_arg6) = W (Proc.devRef .tc main_arg6)).trans h.bias2

/-- Nor of the stretch after the fifth call. -/
theorem Kept.host5 (h : Kept x1 x2 x4 x5 x6 W) : Kept x1 x2 x4 x5 x6 (after hostOps5 W) where
  src := (by after_results_simp : after hostOps5 W (Proc.devRef .tc main_v3) = W (Proc.devRef .tc main_v3)).trans h.src
  dst := (by after_results_simp : after hostOps5 W (Proc.devRef .tc main_v7) = W (Proc.devRef .tc main_v7)).trans h.dst
  norm := (by after_results_simp : after hostOps5 W (Proc.devRef .tc main_v31) = W (Proc.devRef .tc main_v31)).trans h.norm
  batch := (by after_results_simp : after hostOps5 W (Proc.devRef .tc main_arg2) = W (Proc.devRef .tc main_arg2)).trans h.batch
  bias1 := (by after_results_simp : after hostOps5 W (Proc.devRef .tc main_arg4) = W (Proc.devRef .tc main_arg4)).trans h.bias1
  weight2 := (by after_results_simp : after hostOps5 W (Proc.devRef .tc main_arg5) = W (Proc.devRef .tc main_arg5)).trans h.weight2
  bias2 := (by after_results_simp : after hostOps5 W (Proc.devRef .tc main_arg6) = W (Proc.devRef .tc main_arg6)).trans h.bias2

end Cert.KernelIdeal.Flow

end
-- ==== Proof.Spec.lean ====
/-
  The network's stages as whole-array functions on the extended reals, over index types of literal extents.

  A two-layer graph convolution followed by a per-graph mean and a log-softmax:
    * `product x w` — a dense layer: entry `(r, j)` is `∑ k, x (r, k) · w (k, j)`;
    * `scaled h n` — every gathered feature row times its edge's normaliser, the normalisers a column `[rows, 1]`;
    * `biased a b` — every aggregated row plus the bias, the bias one row `[1, lanes]`;
    * `clamped a` — the rectifier, `max a 0` entry by entry (the zero kept as the float word that is printed);
    * `head s cnt` — per graph, the summed logits over the node count clamped below at one, then the log-softmax
      over the two classes, shifted by the larger logit.
  The gathers and scatter-adds between these stages are the same host operations in both programs and never
  opened: the certificate only carries equal arrays through them.
-/
import Idealize.ShloMosaic.PureOps.Ideal
import Idealize.ShloMosaic.Lib.ValueIdx

noncomputable section

namespace GraphNet

open Idealize.ShloMosaic Idealize.ShloMosaic.ValueIdx

/-- The row and the column of a matrix index, at their literal extents. -/
def row {a b : ℕ} (i : (⟨2, ![a, b]⟩ : Shape).Idx) : Fin a := ⟨(i 0).val, (i 0).isLt⟩
def col {a b : ℕ} (i : (⟨2, ![a, b]⟩ : Shape).Idx) : Fin b := ⟨(i 1).val, (i 1).isLt⟩

theorem row_ix2 {a b : ℕ} (r : Fin a) (j : Fin b) : row (ix2 r j) = r := rfl
theorem col_ix2 {a b : ℕ} (r : Fin a) (j : Fin b) : col (ix2 r j) = j := rfl

/-- A dense layer. -/
def product {M K C : ℕ} (x : (⟨2, ![M, K]⟩ : Shape).Idx → EReal) (w : (⟨2, ![K, C]⟩ : Shape).Idx → EReal) :
    (⟨2, ![M, C]⟩ : Shape).Idx → EReal :=
  fun i => ∑ k : Fin K, x (ix2 (row i) k) * w (ix2 k (col i))

theorem product_apply {M K C : ℕ} (x : (⟨2, ![M, K]⟩ : Shape).Idx → EReal) (w : (⟨2, ![K, C]⟩ : Shape).Idx → EReal)
    (r : Fin M) (j : Fin C) : product x w (ix2 r j) = ∑ k : Fin K, x (ix2 r k) * w (ix2 k j) := rfl

/-- Rows scaled by a column of per-row factors. -/
def scaled {M C : ℕ} (h : (⟨2, ![M, C]⟩ : Shape).Idx → EReal) (n : (⟨2, ![M, 1]⟩ : Shape).Idx → EReal) :
    (⟨2, ![M, C]⟩ : Shape).Idx → EReal :=
  fun i => h i * n (ix2 (row i) (0 : Fin 1))

theorem scaled_apply {M C : ℕ} (h : (⟨2, ![M, C]⟩ : Shape).Idx → EReal) (n : (⟨2, ![M, 1]⟩ : Shape).Idx → EReal)
    (r : Fin M) (j : Fin C) : scaled h n (ix2 r j) = h (ix2 r j) * n (ix2 r (0 : Fin 1)) := rfl

/-- Rows plus one row of per-lane terms. -/
def biased {M C : ℕ} (a : (⟨2, ![M, C]⟩ : Shape).Idx → EReal) (b : (⟨2, ![1, C]⟩ : Shape).Idx → EReal) :
    (⟨2, ![M, C]⟩ : Shape).Idx → EReal :=
  fun i => a i + b (ix2 (0 : Fin 1) (col i))

theorem biased_apply {M C : ℕ} (a : (⟨2, ![M, C]⟩ : Shape).Idx → EReal) (b : (⟨2, ![1, C]⟩ : Shape).Idx → EReal)
    (r : Fin M) (j : Fin C) : biased a b (ix2 r j) = a (ix2 r j) + b (ix2 (0 : Fin 1) j) := rfl

/-- The rectifier, the zero as the float word `0x00000000`. -/
def clamped {M C : ℕ} (a : (⟨2, ![M, C]⟩ : Shape).Idx → EReal) : (⟨2, ![M, C]⟩ : Shape).Idx → EReal :=
  fun i => max (a i) (Ideal.ofBits .f32 0x00000000#32)

theorem clamped_apply {M C : ℕ} (a : (⟨2, ![M, C]⟩ : Shape).Idx → EReal) (i : (⟨2, ![M, C]⟩ : Shape).Idx) :
    clamped a i = max (a i) (Ideal.ofBits .f32 0x00000000#32) := rfl

/-! ## The pooled head -/

/-- The float words of 1.0 and of −∞, kept as the words the programs print. -/
abbrev one : EReal := Ideal.ofBits .f32 0x3F800000#32
abbrev negInf : EReal := Ideal.ofBits .f32 0xFF800000#32

/-- A summed logit over the graph's node count, the count clamped below at one. -/
def mean (s cnt : EReal) : EReal := Ideal.div s (max cnt one)

/-- The larger of the two logits, as a fold of `max` from −∞. -/
def top (d : Fin 2 → EReal) : EReal := (Finset.univ : Finset (Fin 2)).fold max negInf d

/-- −∞ is below the fold that starts from it, so taking the maximum with it again changes nothing. -/
theorem max_negInf_top (d : Fin 2 → EReal) : max negInf (top d) = top d :=
  max_eq_right ((Finset.le_fold_max _).mpr (Or.inl le_rfl))

/-- The log-softmax of two logits at class `j`, shifted by their maximum. -/
def logSoftmax (d : Fin 2 → EReal) (j : Fin 2) : EReal :=
  (d j - top d) - Ideal.log (∑ c : Fin 2, Ideal.exp (d c - top d))

/-- Per graph: mean logits, then their log-softmax. -/
def head (s : (⟨2, ![512, 2]⟩ : Shape).Idx → EReal) (cnt : (⟨2, ![512, 1]⟩ : Shape).Idx → EReal) :
    (⟨2, ![512, 2]⟩ : Shape).Idx → EReal :=
  fun i => logSoftmax (fun c => mean (s (ix2 (row i) c)) (cnt (ix2 (row i) (0 : Fin 1)))) (col i)

theorem head_apply (s : (⟨2, ![512, 2]⟩ : Shape).Idx → EReal) (cnt : (⟨2, ![512, 1]⟩ : Shape).Idx → EReal)
    (r : Fin 512) (j : Fin 2) :
    head s cnt (ix2 r j) = logSoftmax (fun c => mean (s (ix2 r c)) (cnt (ix2 r (0 : Fin 1)))) j := rfl

end GraphNet

end
-- ==== Proof.LibColumns.lean ====
/-
  Keepdims columns read at an index. A vector of length `a` laid out as a column `[a, 1]` holds, at row `p`, the
  vector's entry `p`; a column `[a, 1]` repeated along a second axis of length `b` holds, at `(p, c)`, the column's
  entry at row `p`, whatever the lane `c`. These are the two layout steps by which a per-row scalar (a row's
  normaliser, a row's count) meets a matrix of rows.
-/
import Idealize.ShloMosaic.Lib.Pipeline.Value
import Idealize.ShloMosaic.Lib.ValueIdx

namespace Idealize.ShloMosaic.Columns

open Idealize.ShloMosaic Idealize.ShloMosaic.ValueIdx

variable {α : Type}

/-- A vector `[a]` cast to a column `[a, 1]` reads, at `(p, u)`, the vector at `p`, whatever the unit coordinate `u`:
    both positions have the same row-major rank `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at row `p`: the unit axis is the one that
    is repeated, the row axis is kept. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns
-- ==== Proof.RefStages.lean ====
/-
  The reference's stages that the kernel computes in its pipelined calls, each identified with the specification's
  whole-array function of the reference's own earlier stages. Every identification is index by index: the stage is
  read at `(r, j)` through the generated read-at-an-index lemmas, and the index maps of its broadcasts are resolved
  to plain coordinates. The gathers and scatter-adds in between are left as they are.

  Where the reference repeats a per-row vector along a new axis (`[n] → [n, 1]`, `[c] → [1, c]`) the kernel's program
  casts it instead; both read the vector's entry, so the specification takes the cast form, its side condition a
  hypothesis here.
-/
import proofs.«150239_j11175504904923_2_alg».proof.Proof.ReferenceReadPatched
import proofs.«150239_j11175504904923_2_alg».proof.Proof.Spec
import proofs.«150239_j11175504904923_2_alg».proof.Proof.LibColumns
import Idealize.ShloMosaic.Lib.ValueLayout

noncomputable section

namespace Cert.ReferenceIdeal.Stages

open Cert.ReferenceIdeal Cert.ReferenceIdeal.Read Idealize.ShloMosaic Idealize.ShloMosaic.ValueIdx Idealize.ShloMosaic.Columns
open GraphNet

variable (x0 : (⟨S300000x128, .f32⟩ : BufTy).Contents (Elt Ideal)) (x1 : (⟨S2x9600000, .i32⟩ : BufTy).Contents (Elt Ideal))
  (x2 : (⟨S300000, .i32⟩ : BufTy).Contents (Elt Ideal)) (x3 : (⟨S128x16, .f32⟩ : BufTy).Contents (Elt Ideal))
  (x4 : (⟨S16, .f32⟩ : BufTy).Contents (Elt Ideal)) (x5 : (⟨S16x2, .f32⟩ : BufTy).Contents (Elt Ideal))
  (x6 : (⟨S2, .f32⟩ : BufTy).Contents (Elt Ideal))

/-! ## The two dense layers -/

/-- The first layer's `dot_general` is the whole product of the features and the first weight. -/
theorem dense1 : val_main_v30 (F := Ideal) x0 x3 = product x0 x3 := by
  funext i
  obtain ⟨r, j, rfl⟩ : ∃ (r : Fin 300000) (j : Fin 16), i = ix2 r j := ⟨i 0, i 1, eq_ix2 i⟩
  rw [val_main_v30_apply, product_apply]
  refine Finset.sum_congr rfl fun k _ => ?_
  have el : lidx_main_v30 (ix2 r j) k = ix2 r k := funext fun a => Fin.ext (by
    match a with
    | ⟨0, _⟩ => rfl
    | ⟨1, _⟩ => rfl)
  have er : ridx_main_v30 (ix2 r j) k = ix2 k j := funext fun a => Fin.ext (by
    match a with
    | ⟨0, _⟩ => rfl
    | ⟨1, _⟩ => rfl)
  rw [el, er]

/-- The second layer's `dot_general` is the whole product of the hidden features and the second weight. -/
theorem dense2 : val_main_v48 (F := Ideal) x0 x1 x3 x4 x5 = product (val_main_v47 (F := Ideal) x0 x1 x3 x4) x5 := by
  funext i
  obtain ⟨r, j, rfl⟩ : ∃ (r : Fin 300000) (j : Fin 2), i = ix2 r j := ⟨i 0, i 1, eq_ix2 i⟩
  rw [val_main_v48_apply, product_apply]
  refine Finset.sum_congr rfl fun k _ => ?_
  have el : lidx_main_v48 (ix2 r j) k = ix2 r k := funext fun a => Fin.ext (by
    match a with
    | ⟨0, _⟩ => rfl
    | ⟨1, _⟩ => rfl)
  have er : ridx_main_v48 (ix2 r j) k = ix2 k j := funext fun a => Fin.ext (by
    match a with
    | ⟨0, _⟩ => rfl
    | ⟨1, _⟩ => rfl)
  rw [el, er]

/-! ## The two edge scalings -/

/-- The first layer's messages: the gathered rows times the edges' normalisers, the normalisers as a column. -/
theorem scale1 (h : (⟨1, ![9900000]⟩ : Shape).ShapeCasts ⟨2, ![9900000, 1]⟩) :
    val_main_v40 (F := Ideal) x0 x1 x3
      = scaled (val_main_v37 (F := Ideal) x0 x1 x3) (shapeCast ⟨2, ![9900000, 1]⟩ (val_main_v29 (F := Ideal) x1) h) := by
  funext i
  obtain ⟨r, j, rfl⟩ : ∃ (r : Fin 9900000) (j : Fin 16), i = ix2 r j := ⟨i 0, i 1, eq_ix2 i⟩
  rw [val_main_v40_apply, val_main_v39_apply, val_main_v38_apply, scaled_apply, shapeCast_a_a1_apply]
  have e : idx_main_v38 (idx_main_v39 (ix2 r j)) = ix1 r := funext fun a => Fin.ext (by
    match a with
    | ⟨0, _⟩ => rfl)
  rw [e]
  rfl

/-- The second layer's messages likewise. -/
theorem scale2 (h : (⟨1, ![9900000]⟩ : Shape).ShapeCasts ⟨2, ![9900000, 1]⟩) :
    val_main_v58 (F := Ideal) x0 x1 x3 x4 x5
      = scaled (val_main_v55 (F := Ideal) x0 x1 x3 x4 x5) (shapeCast ⟨2, ![9900000, 1]⟩ (val_main_v29 (F := Ideal) x1) h) := by
  funext i
  obtain ⟨r, j, rfl⟩ : ∃ (r : Fin 9900000) (j : Fin 2), i = ix2 r j := ⟨i 0, i 1, eq_ix2 i⟩
  rw [val_main_v58_apply, val_main_v57_apply, val_main_v56_apply, scaled_apply, shapeCast_a_a1_apply]
  have e : idx_main_v56 (idx_main_v57 (ix2 r j)) = ix1 r := funext fun a => Fin.ext (by
    match a with
    | ⟨0, _⟩ => rfl)
  rw [e]
  rfl

/-! ## The two biases -/

/-- The first layer's output: the aggregated rows plus the bias, clamped below at zero. -/
theorem bias1 (h : (⟨1, ![16]⟩ : Shape).ShapeCasts ⟨2, ![1, 16]⟩) :
    val_main_v47 (F := Ideal) x0 x1 x3 x4
      = clamped (biased (val_main_v43 (F := Ideal) x0 x1 x3) (shapeCast ⟨2, ![1, 16]⟩ x4 h)) := by
  funext i
  obtain ⟨r, j, rfl⟩ : ∃ (r : Fin 300000) (j : Fin 16), i = ix2 r j := ⟨i 0, i 1, eq_ix2 i⟩
  rw [val_main_v47_apply, val_main_v46_apply, val_main_v45_apply, val_main_v44_apply, val_main_call1_v0_apply,
    val_main_call1_cst_apply, clamped_apply, biased_apply, shapeCast_a_1a_apply]
  have e : idx_main_v44 (idx_main_v45 (ix2 r j)) = ix1 j := funext fun a => Fin.ext (by
    match a with
    | ⟨0, _⟩ => rfl)
  rw [e]
  rfl

/-- The second layer's output: the aggregated rows plus the bias. -/
theorem bias2 (h : (⟨1, ![2]⟩ : Shape).ShapeCasts ⟨2, ![1, 2]⟩) :
    val_main_v64 (F := Ideal) x0 x1 x3 x4 x5 x6
      = biased (val_main_v61 (F := Ideal) x0 x1 x3 x4 x5) (shapeCast ⟨2, ![1, 2]⟩ x6 h) := by
  funext i
  obtain ⟨r, j, rfl⟩ : ∃ (r : Fin 300000) (j : Fin 2), i = ix2 r j := ⟨i 0, i 1, eq_ix2 i⟩
  rw [val_main_v64_apply, val_main_v63_apply, val_main_v62_apply, biased_apply, shapeCast_a_1a_apply]
  have e : idx_main_v62 (idx_main_v63 (ix2 r j)) = ix1 j := funext fun a => Fin.ext (by
    match a with
    | ⟨0, _⟩ => rfl)
  rw [e]
  rfl

end Cert.ReferenceIdeal.Stages

end
-- ==== Proof.RefHead.lean ====
/-
  The reference's last stage — per graph, the summed logits over the clamped node count, then jax's log-softmax —
  identified with the specification's `head` of the reference's own pooled sums and counts.

  Read at graph `r` and class `j`: the quotient is `d c = sums (r, c) / max (counts r) 1`. jax takes the maximum of a
  row by a reduce from −∞ and then once more the maximum with −∞; the second changes nothing, since −∞ is already
  below the fold that starts from it. The shifted logits are exponentiated and summed by a host reduce from the
  float word of zero, which is the extended real 0. So the entry is `(d j − μ) − log (∑ c, exp (d c − μ))` with `μ` the
  larger of the two quotients — the specification's `logSoftmax` of `mean`.
-/
import proofs.«150239_j11175504904923_2_alg».proof.Proof.ReferenceReadPatched
import proofs.«150239_j11175504904923_2_alg».proof.Proof.Spec
import proofs.«150239_j11175504904923_2_alg».proof.Proof.LibColumns
import Idealize.ShloMosaic.PureOps.Ideal.Laws

noncomputable section

namespace Cert.ReferenceIdeal.Stages

open Cert.ReferenceIdeal Cert.ReferenceIdeal.Read Idealize.ShloMosaic Idealize.ShloMosaic.ValueIdx Idealize.ShloMosaic.Columns
open Cert.ReferenceIdeal.Facts₀
open GraphNet

variable (x0 : (⟨S300000x128, .f32⟩ : BufTy).Contents (Elt Ideal)) (x1 : (⟨S2x9600000, .i32⟩ : BufTy).Contents (Elt Ideal))
  (x2 : (⟨S300000, .i32⟩ : BufTy).Contents (Elt Ideal)) (x3 : (⟨S128x16, .f32⟩ : BufTy).Contents (Elt Ideal))
  (x4 : (⟨S16, .f32⟩ : BufTy).Contents (Elt Ideal)) (x5 : (⟨S16x2, .f32⟩ : BufTy).Contents (Elt Ideal))
  (x6 : (⟨S2, .f32⟩ : BufTy).Contents (Elt Ideal))

/-- The reduced index `r` with the class coordinate put back is `(r, k)`. -/
theorem lift_row (h : S512x2.Reduces [1] S512) (r : Fin 512) (k : Fin 2) : h.lift (ix1 r) k = ix2 r k :=
  funext fun a => Fin.ext (by
    match a with
    | ⟨0, _⟩ => rfl
    | ⟨1, _⟩ => rfl)

/-- The quotient at `(r, k)`: the pooled sum over the graph's count clamped below at one. -/
theorem quotient_apply (r : Fin 512) (k : Fin 2) :
    val_main_v76 (F := Ideal) x0 x1 x2 x3 x4 x5 x6 (ix2 r k)
      = mean (val_main_v71 (F := Ideal) x0 x1 x2 x3 x4 x5 x6 (ix2 r k)) (val_main_v68 (F := Ideal) x2 (ix1 r)) := by
  rw [val_main_v76_apply, val_main_v75_apply, val_main_v74_apply, val_main_v73_apply, val_main_v72_apply]
  have e : idx_main_v74 (idx_main_v75 (ix2 r k)) = ix1 r := funext fun a => Fin.ext (by
    match a with
    | ⟨0, _⟩ => rfl)
  rw [e]
  rfl

/-- The row maximum as jax takes it, at graph `r`: the larger of the two quotients. -/
theorem rowmax_apply (h : S512x2.Reduces [1] S512) (r : Fin 512) :
    val_main_call2_v2 (F := Ideal) x0 x1 x2 x3 x4 x5 x6 (ix1 r)
      = top fun k => val_main_v76 (F := Ideal) x0 x1 x2 x3 x4 x5 x6 (ix2 r k) := by
  rw [val_main_call2_v2_apply, val_main_call2_v1_apply]
  have hfold : val_main_call2_v0 (F := Ideal) x0 x1 x2 x3 x4 x5 x6 (ix1 r)
      = top fun k => val_main_v76 (F := Ideal) x0 x1 x2 x3 x4 x5 x6 (ix2 r k) := by
    unfold val_main_call2_v0 top
    refine (Host.reduce_eq_fold_single FloatOps.maximumf _ _ reducesTo_S512x2_S512_d1 h h_S_ (ix1 r)).trans ?_
    refine congrArg (Finset.fold max _ · Finset.univ) (funext fun k => ?_)
    exact congrArg (val_main_v76 (F := Ideal) x0 x1 x2 x3 x4 x5 x6) (lift_row h r k)
  rw [hfold]
  exact max_negInf_top _

/-- The shifted quotient at `(r, k)`. -/
theorem shifted_apply (h : S512x2.Reduces [1] S512) (r : Fin 512) (k : Fin 2) :
    val_main_call2_v5 (F := Ideal) x0 x1 x2 x3 x4 x5 x6 (ix2 r k)
      = val_main_v76 (F := Ideal) x0 x1 x2 x3 x4 x5 x6 (ix2 r k)
        - top fun c => val_main_v76 (F := Ideal) x0 x1 x2 x3 x4 x5 x6 (ix2 r c) := by
  rw [val_main_call2_v5_apply, val_main_call2_v4_apply, val_main_call2_v3_apply]
  have e : idx_main_call2_v3 (idx_main_call2_v4 (ix2 r k)) = ix1 r := funext fun a => Fin.ext (by
    match a with
    | ⟨0, _⟩ => rfl)
  rw [e, rowmax_apply x0 x1 x2 x3 x4 x5 x6 h r]
  rfl

/-- The logarithm of the row's sum of exponentials, at `(r, j)`. -/
theorem logsum_apply (h : S512x2.Reduces [1] S512) (r : Fin 512) (j : Fin 2) :
    val_main_call2_v10 (F := Ideal) x0 x1 x2 x3 x4 x5 x6 (ix2 r j)
      = Ideal.log (∑ k : Fin 2, Ideal.exp (val_main_v76 (F := Ideal) x0 x1 x2 x3 x4 x5 x6 (ix2 r k)
          - top fun c => val_main_v76 (F := Ideal) x0 x1 x2 x3 x4 x5 x6 (ix2 r c))) := by
  rw [val_main_call2_v10_apply, val_main_call2_v9_apply, val_main_call2_v8_apply]
  have e : idx_main_call2_v8 (idx_main_call2_v10 (ix2 r j)) = ix1 r := funext fun a => Fin.ext (by
    match a with
    | ⟨0, _⟩ => rfl)
  rw [e, val_main_call2_v7_apply, val_main_call2_cst_1_apply, Ideal.hostUnary_log_def, Ideal.ofBits_def,
    Ideal.ofBits_zero_f32, zero_add]
  refine congrArg Ideal.log (Finset.sum_congr rfl fun k _ => ?_)
  have ek : idx_main_call2_v7 (ix1 r) k = ix2 r k := funext fun a => Fin.ext (by
    match a with
    | ⟨0, _⟩ => rfl
    | ⟨1, _⟩ => rfl)
  rw [ek, val_main_call2_v6_apply, shifted_apply x0 x1 x2 x3 x4 x5 x6 h r k, Ideal.hostUnary_exp_def]

/-- The reference's result is the head of its pooled sums and of its counts as a column. -/
theorem pooled (h : S512x2.Reduces [1] S512) (hc : (⟨1, ![512]⟩ : Shape).ShapeCasts ⟨2, ![512, 1]⟩) :
    val_main_v77 (F := Ideal) x0 x1 x2 x3 x4 x5 x6
      = head (val_main_v71 (F := Ideal) x0 x1 x2 x3 x4 x5 x6)
          (shapeCast ⟨2, ![512, 1]⟩ (val_main_v68 (F := Ideal) x2) hc) := by
  funext i
  obtain ⟨r, j, rfl⟩ : ∃ (r : Fin 512) (j : Fin 2), i = ix2 r j := ⟨i 0, i 1, eq_ix2 i⟩
  rw [val_main_v77_apply, shifted_apply x0 x1 x2 x3 x4 x5 x6 h r j, logsum_apply x0 x1 x2 x3 x4 x5 x6 h r j,
    head_apply, shapeCast_a_a1_apply]
  have hq : (fun c : Fin 2 => val_main_v76 (F := Ideal) x0 x1 x2 x3 x4 x5 x6 (ix2 r c))
      = fun c => mean (val_main_v71 (F := Ideal) x0 x1 x2 x3 x4 x5 x6 (ix2 r c)) (val_main_v68 (F := Ideal) x2 (ix1 r)) :=
    funext fun c => quotient_apply x0 x1 x2 x3 x4 x5 x6 r c
  rw [hq]
  simp only [quotient_apply]
  rfl

end Cert.ReferenceIdeal.Stages

end
-- ==== Proof.DenseBlock.lean ====
/-
  One grid point of each dense layer. The body multiplies a block of 12000 rows by the whole weight matrix into a
  zero accumulator; on the extended reals the narrowing of both operands to bf16 is the identity, so an entry of
  the block is the plain sum, over the contracted axis, of the products of the row's and the column's entries.
-/
import proofs.«150239_j11175504904923_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen Idealize.ShloMosaic Idealize.ShloMosaic.ValueIdx

/-! ## The first layer: 12000×128 times 128×16 -/

/-- In the product's left operand the row coordinate is the output's row. -/
theorem layer1_lhs_row (i : S12000x16.Idx) (q : dot_S12000x128_S128x16_S12000x16_1_0_0_1_n_n.contr.Idx) :
    (dot_S12000x128_S128x16_S12000x16_1_0_0_1_n_n.lhsIdx i q 0).val = (i 0).val := by
  unfold DotDims.lhsIdx
  rw [dif_neg (show ¬(0 : Fin S12000x128.rank) ∈ dot_S12000x128_S128x16_S12000x16_1_0_0_1_n_n.lhsBatch by decide),
    dif_pos (show (0 : Fin S12000x128.rank) ∈ dot_S12000x128_S128x16_S12000x16_1_0_0_1_n_n.lhsNonContracting by decide)]
  rfl

/-- In the product's right operand the column coordinate is the output's column. -/
theorem layer1_rhs_col (i : S12000x16.Idx) (q : dot_S12000x128_S128x16_S12000x16_1_0_0_1_n_n.contr.Idx) :
    (dot_S12000x128_S128x16_S12000x16_1_0_0_1_n_n.rhsIdx i q 1).val = (i 1).val := by
  unfold DotDims.rhsIdx
  rw [dif_neg (show ¬(1 : Fin S128x16.rank) ∈ dot_S12000x128_S128x16_S12000x16_1_0_0_1_n_n.rhsBatch by decide),
    dif_pos (show (1 : Fin S128x16.rank) ∈ dot_S12000x128_S128x16_S12000x16_1_0_0_1_n_n.rhsNonContracting by decide)]
  rfl

/-- One block of 12000 rows times the whole 128×16 weight, accumulated from zero: entry `(r, j)` is
    `∑ k, x (r, k) · w (k, j)`. Narrowing the operands to bf16 changes nothing on the extended reals. -/
theorem layer1_block (x : Vec Ideal S12000x128 .f32) (w : Vec Ideal S128x16 .f32) (r : Fin 12000) (j : Fin 16) :
    k0_pay1 (F := Ideal) x w (ix2 r j) = ∑ k : Fin 128, x (ix2 r k) * w (ix2 k j) := by
  unfold k0_pay1
  refine (Ideal.matmul_constant_zero_apply dot_S12000x128_S128x16_S12000x16_1_0_0_1_n_n none _ _ (ix2 r j)).trans ?_
  rw [← Equiv.sum_comp (contrEquiv1 dot_S12000x128_S128x16_S12000x16_1_0_0_1_n_n 128 rfl rfl).symm]
  refine Finset.sum_congr rfl fun k _ => ?_
  have hk := contrEquiv1_symm_val dot_S12000x128_S128x16_S12000x16_1_0_0_1_n_n 128 rfl rfl k
  have el : dot_S12000x128_S128x16_S12000x16_1_0_0_1_n_n.lhsIdx (ix2 r j)
      ((contrEquiv1 dot_S12000x128_S128x16_S12000x16_1_0_0_1_n_n 128 rfl rfl).symm k) = ix2 r k :=
    funext fun a => Fin.ext (by
      match a with
      | ⟨0, _⟩ => exact layer1_lhs_row _ _
      | ⟨1, _⟩ => exact (dot_S12000x128_S128x16_S12000x16_1_0_0_1_n_n.lhsIdx_val_of_single rfl _ _).trans hk)
  have er : dot_S12000x128_S128x16_S12000x16_1_0_0_1_n_n.rhsIdx (ix2 r j)
      ((contrEquiv1 dot_S12000x128_S128x16_S12000x16_1_0_0_1_n_n 128 rfl rfl).symm k) = ix2 k j :=
    funext fun a => Fin.ext (by
      match a with
      | ⟨0, _⟩ => exact (dot_S12000x128_S128x16_S12000x16_1_0_0_1_n_n.rhsIdx_val_of_single rfl _ _).trans hk
      | ⟨1, _⟩ => exact layer1_rhs_col _ _)
  rw [el, er]
  rfl

/-! ## The second layer: 12000×16 times 16×2 -/

/-- In the product's left operand the row coordinate is the output's row. -/
theorem layer2_lhs_row (i : S12000x2.Idx) (q : dot_S12000x16_S16x2_S12000x2_1_0_0_1_n_n.contr.Idx) :
    (dot_S12000x16_S16x2_S12000x2_1_0_0_1_n_n.lhsIdx i q 0).val = (i 0).val := by
  unfold DotDims.lhsIdx
  rw [dif_neg (show ¬(0 : Fin S12000x16.rank) ∈ dot_S12000x16_S16x2_S12000x2_1_0_0_1_n_n.lhsBatch by decide),
    dif_pos (show (0 : Fin S12000x16.rank) ∈ dot_S12000x16_S16x2_S12000x2_1_0_0_1_n_n.lhsNonContracting by decide)]
  rfl

/-- In the product's right operand the column coordinate is the output's column. -/
theorem layer2_rhs_col (i : S12000x2.Idx) (q : dot_S12000x16_S16x2_S12000x2_1_0_0_1_n_n.contr.Idx) :
    (dot_S12000x16_S16x2_S12000x2_1_0_0_1_n_n.rhsIdx i q 1).val = (i 1).val := by
  unfold DotDims.rhsIdx
  rw [dif_neg (show ¬(1 : Fin S16x2.rank) ∈ dot_S12000x16_S16x2_S12000x2_1_0_0_1_n_n.rhsBatch by decide),
    dif_pos (show (1 : Fin S16x2.rank) ∈ dot_S12000x16_S16x2_S12000x2_1_0_0_1_n_n.rhsNonContracting by decide)]
  rfl

/-- One block of 12000 rows times the whole 16×2 weight, accumulated from zero: entry `(r, j)` is
    `∑ k, x (r, k) · w (k, j)`. The block is first cast to its own shape (the identity) and narrowed to bf16
    (the identity on the extended reals). -/
theorem layer2_block (x : Vec Ideal S12000x16 .f32) (w : Vec Ideal S16x2 .f32) (r : Fin 12000) (j : Fin 2) :
    k3_pay1 (F := Ideal) x w (ix2 r j) = ∑ k : Fin 16, x (ix2 r k) * w (ix2 k j) := by
  unfold k3_pay1
  refine (Ideal.matmul_constant_zero_apply dot_S12000x16_S16x2_S12000x2_1_0_0_1_n_n none _ _ (ix2 r j)).trans ?_
  rw [← Equiv.sum_comp (contrEquiv1 dot_S12000x16_S16x2_S12000x2_1_0_0_1_n_n 16 rfl rfl).symm]
  refine Finset.sum_congr rfl fun k _ => ?_
  have hk := contrEquiv1_symm_val dot_S12000x16_S16x2_S12000x2_1_0_0_1_n_n 16 rfl rfl k
  have el : dot_S12000x16_S16x2_S12000x2_1_0_0_1_n_n.lhsIdx (ix2 r j)
      ((contrEquiv1 dot_S12000x16_S16x2_S12000x2_1_0_0_1_n_n 16 rfl rfl).symm k) = ix2 r k :=
    funext fun a => Fin.ext (by
      match a with
      | ⟨0, _⟩ => exact layer2_lhs_row _ _
      | ⟨1, _⟩ => exact (dot_S12000x16_S16x2_S12000x2_1_0_0_1_n_n.lhsIdx_val_of_single rfl _ _).trans hk)
  have er : dot_S12000x16_S16x2_S12000x2_1_0_0_1_n_n.rhsIdx (ix2 r j)
      ((contrEquiv1 dot_S12000x16_S16x2_S12000x2_1_0_0_1_n_n 16 rfl rfl).symm k) = ix2 k j :=
    funext fun a => Fin.ext (by
      match a with
      | ⟨0, _⟩ => exact (dot_S12000x16_S16x2_S12000x2_1_0_0_1_n_n.rhsIdx_val_of_single rfl _ _).trans hk
      | ⟨1, _⟩ => exact layer2_rhs_col _ _)
  rw [el, er, shapeCast_self]
  rfl

end Cert.KernelIdeal.Dense

end
-- ==== Proof.Layer1.lean ====
/-
  The first dense layer as one whole-array function. The call walks 25 blocks of 12000 node rows; at each it
  multiplies the block by the whole 128×16 weight. A row of the product depends on that row of the left operand
  only, so block `t` of the whole product IS what point `t` computes from block `t`, and the 25 blocks tile the
  300000 rows: after the call the output array is the product of the two arrays the call was entered with.
-/
import proofs.«150239_j11175504904923_2_alg».proof.Proof.Gen.KernelIdeal.Frame
import proofs.«150239_j11175504904923_2_alg».proof.Proof.DenseBlock
import proofs.«150239_j11175504904923_2_alg».proof.Proof.Spec
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open GraphNet (product product_apply)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: point `t` takes row block `t` of the left operand and of the
    output, and the one block of the weight. -/
theorem steps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 25 := by
  have h : t.val < grid0.N := t.isLt
  rw [N_0] at h; exact h

/-- Row `r` of block `t` is row `t · 12000 + r` of the array. -/
def rowAt (t : Fin cfg0.N) (r : Fin 12000) : Fin 300000 :=
  ⟨t.val * 12000 + r.val, by have := point_lt t; have := r.isLt; omega⟩

/-- The left operand's block at point `t`, read at `(r, k)`: the array at row `t · 12000 + r`. -/
theorem left_read (c : Dev nD) (t : Fin cfg0.N) (r : Fin 12000) (k : Fin 128) :
    iblk0 V c 0 t (ix2 r k) = V c main_arg0 (ix2 (rowAt t r) k) := by
  obtain ⟨e0, e1, -, -, -, -⟩ := steps t
  show V c main_arg0 (((cfg0.win 0).blk t).view.emb (ix2 r k)) = V c main_arg0 (ix2 (rowAt t r) k)
  refine congrArg (V c main_arg0) (funext fun a => Fin.ext ?_)
  match a with
  | ⟨0, _⟩ => show win0_0.index t (0 : Fin 2) * 12000 + 1 * r.val = t.val * 12000 + r.val; omega
  | ⟨1, _⟩ => show win0_0.index t (1 : Fin 2) * 128 + 1 * k.val = k.val; omega

/-- The weight's block at any point is the whole weight. -/
theorem right_read (c : Dev nD) (t : Fin cfg0.N) (k : Fin 128) (j : Fin 16) :
    iblk0 V c 1 t (ix2 k j) = V c main_arg3 (ix2 k j) := by
  obtain ⟨-, -, e2, e3, -, -⟩ := steps t
  show V c main_arg3 (((cfg0.win 1).blk t).view.emb (ix2 k j)) = V c main_arg3 (ix2 k j)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 16 + 1 * j.val = j.val; omega

/-- Entry `(r, j)` of the output's block at point `t` sits at row `t · 12000 + r` of the output array. -/
theorem out_at (t : Fin cfg0.N) (r : Fin 12000) (j : Fin 16) :
    ((cfg0.win 2).blk t).view.emb (ix2 r j) = ix2 (rowAt t r) j := by
  obtain ⟨-, -, -, -, e4, e5⟩ := steps t
  refine funext fun a => Fin.ext ?_
  match a with
  | ⟨0, _⟩ => show win0_2.index t (0 : Fin 2) * 12000 + 1 * r.val = t.val * 12000 + r.val; omega
  | ⟨1, _⟩ => show win0_2.index t (1 : Fin 2) * 16 + 1 * j.val = j.val; omega

/-- What point `t` writes back is block `t` of the whole product of the arrays as the call finds them. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero origin]
  simp only [View.ld_unit_zero (S := S12000x128) origin, View.ld_unit_zero (S := S128x16) origin]
  funext y
  obtain ⟨r, j, rfl⟩ : ∃ (r : Fin 12000) (j : Fin 16), y = ix2 r j := ⟨y 0, y 1, eq_ix2 y⟩
  show k0_pay1 (iblk0 V c 0 t) (iblk0 V c 1 t) (ix2 r j)
    = product (V c main_arg0) (V c main_arg3) (((cfg0.win 2).blk t).view.emb (ix2 r j))
  rw [out_at, product_apply]
  refine (Dense.layer1_block (iblk0 V c 0 t) (iblk0 V c 1 t) r j).trans ?_
  exact Finset.sum_congr rfl fun k _ => by rw [left_read, right_read]

/-- An index of the output array lies in point `t`'s block iff each coordinate lies in the block's range. -/
theorem mem_blk (t : Fin cfg0.N) (i : S300000x16.Idx) :
    i ∈ ((cfg0.win 2).blk t).view.set ↔ ∀ a : Fin 2, win0_2.index t a * S12000x16.size a ≤ (i a).val
      ∧ (i a).val < win0_2.index t a * S12000x16.size a + S12000x16.size a := by
  show i ∈ ((View.whole main_v32).slice (win0_2.rect t)).set ↔ _
  rw [View.set_slice_whole, Rect.mem_set_unit]
  exact Iff.rfl

/-- The row blocks tile the output: row `r` is in the block of point `r / 12000`. -/
theorem cover (i : S300000x16.Idx) :
    ∃ t : Fin cfg0.N, (cfg0.win 2).flush t = true ∧ i ∈ ((cfg0.win 2).blk t).view.set := by
  have h0 : (i 0).val < 300000 := (i 0).isLt
  have h1 : (i 1).val < 16 := (i 1).isLt
  let t : Fin cfg0.N := ⟨(i 0).val / 12000, by show _ < grid0.N; rw [N_0]; omega⟩
  have ht : t.val = (i 0).val / 12000 := rfl
  obtain ⟨-, -, -, -, e4, e5⟩ := steps t
  refine ⟨t, flush0_2 t, ?_⟩
  rw [mem_blk]
  intro a
  match a with
  | ⟨0, _⟩ =>
    show win0_2.index t (0 : Fin 2) * 12000 ≤ (i 0).val ∧ (i 0).val < win0_2.index t (0 : Fin 2) * 12000 + 12000
    omega
  | ⟨1, _⟩ =>
    show win0_2.index t (1 : Fin 2) * 16 ≤ (i 1).val ∧ (i 1).val < win0_2.index t (1 : Fin 2) * 16 + 16
    omega

/-- After the call its output array is the whole product of the two arrays it was entered with. -/
theorem final (c : Dev nD) : (dat0 V c).arrAt 2 cfg0.N = product (V c main_arg0) (V c main_arg3) :=
  (dat0 V c).arrAt_eq_of_cover 2 _ (fun t _ => flushed_eq V c t) cover

end Cert.KernelIdeal.Layer1

end
-- ==== Proof.RowBlocks.lean ====
/-
  One grid point of each of the four row-wise bodies, read at an entry `(r, j)` of its block on the extended reals.

  * Edge scaling (both layers): a block of gathered feature rows, each multiplied by its edge's normaliser, which
    arrives as a column `[rows, 1]` and is repeated along the lanes: entry `(r, j)` is `h (r, j) · n (r, 0)`.
  * Bias (both layers): a block of aggregated rows plus the bias, which arrives as one row `[1, lanes]` and is
    repeated down the rows: `a (r, j) + b (0, j)`; the first layer then clamps below at zero.
-/
import proofs.«150239_j11175504904923_2_alg».proof.Proof.Gen.KernelIdeal.Skeleton
import proofs.«150239_j11175504904923_2_alg».proof.Proof.LibColumns
import Idealize.ShloMosaic.Lib.ValueIdx
import Idealize.ShloMosaic.Lib.ValueLayout
import Idealize.ShloMosaic.PureOps.Ideal.Laws

noncomputable section

namespace Cert.KernelIdeal.Rowwise

open Cert.KernelIdeal Cert.KernelIdeal.Gen Idealize.ShloMosaic Idealize.ShloMosaic.ValueIdx Idealize.ShloMosaic.Columns

/-- First layer's edge scaling at an entry: the gathered feature times the edge's normaliser. -/
theorem scale16_block (n : Vec Ideal S6600x1 .f32) (h : Vec Ideal S6600x16 .f32) (r : Fin 6600) (j : Fin 16) :
    k1_pay1 (F := Ideal) n h (ix2 r j) = h (ix2 r j) * n (ix2 r (0 : Fin 1)) := by
  unfold k1_pay1
  simp only [shapeCast_self]
  refine (mulf_apply _ _ _).trans ?_
  rw [broadcastTo_a1_ab_apply]

/-- Second layer's edge scaling at an entry. -/
theorem scale2_block (n : Vec Ideal S6600x1 .f32) (h : Vec Ideal S6600x2 .f32) (r : Fin 6600) (j : Fin 2) :
    k4_pay1 (F := Ideal) n h (ix2 r j) = h (ix2 r j) * n (ix2 r (0 : Fin 1)) := by
  unfold k4_pay1
  simp only [shapeCast_self]
  refine (mulf_apply _ _ _).trans ?_
  rw [broadcastTo_a1_ab_apply]

/-- First layer's bias and clamp at an entry: `max (a + b) 0`, the zero kept as the float word it is printed as. -/
theorem biasRelu_block (b : Vec Ideal S1x16 .f32) (a : Vec Ideal S12000x16 .f32) (r : Fin 12000) (j : Fin 16) :
    k2_pay1 (F := Ideal) b a (ix2 r j) = max (a (ix2 r j) + b (ix2 (0 : Fin 1) j)) (Ideal.ofBits .f32 0x00000000#32) := by
  unfold k2_pay1
  simp only [shapeCast_self]
  refine (maximumf_apply _ _ _).trans ?_
  refine congrArg₂ max ?_ rfl
  refine (addf_apply _ _ _).trans ?_
  rw [broadcastTo_1b_ab_apply]

/-- Second layer's bias at an entry. -/
theorem bias_block (b : Vec Ideal S1x2 .f32) (a : Vec Ideal S12000x2 .f32) (r : Fin 12000) (j : Fin 2) :
    k5_pay1 (F := Ideal) b a (ix2 r j) = a (ix2 r j) + b (ix2 (0 : Fin 1) j) := by
  unfold k5_pay1
  simp only [shapeCast_self]
  refine (addf_apply _ _ _).trans ?_
  rw [broadcastTo_1b_ab_apply]

end Cert.KernelIdeal.Rowwise

end
-- ==== Proof.Scale1.lean ====
/-
  The first layer's edge scaling as one whole-array function. The call walks 1500 blocks of 6600 edge rows; at each
  it multiplies the block of gathered 16-wide feature rows by the block of the edges' normalisers, a column. Row
  `r` of the result depends on row `r` of either operand only, and the three windows move together, so block `t` of
  the whole scaled array IS what point `t` computes, and the 1500 blocks tile the 9900000 rows.
-/
import proofs.«150239_j11175504904923_2_alg».proof.Proof.Gen.KernelIdeal.Frame
import proofs.«150239_j11175504904923_2_alg».proof.Proof.RowBlocks
import proofs.«150239_j11175504904923_2_alg».proof.Proof.Spec
import Idealize.ShloMosaic.Lib.Pipeline.Value
import Idealize.ShloMosaic.Lib.ValueIdx

set_option maxRecDepth 16384

noncomputable section

namespace Cert.KernelIdeal.Scale1

open Cert.KernelIdeal Cert.KernelIdeal.Gen Idealize.ShloMosaic Idealize.ShloMosaic.TcCoe Idealize.SL.Sem
open Idealize.ShloMosaic.ValueIdx
open Idealize.ShloMosaic.Pipeline (Dat)
open GraphNet (scaled scaled_apply)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 1500 grid points: point `t` takes row block `t` of all three arrays. -/
theorem steps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 1500 := by
  have h : t.val < grid1.N := t.isLt
  rw [N_1] at h; exact h

/-- Row `r` of block `t` is row `t · 6600 + r` of the array. -/
def rowAt (t : Fin cfg1.N) (r : Fin 6600) : Fin 9900000 :=
  ⟨t.val * 6600 + r.val, by have := point_lt t; have := r.isLt; omega⟩

/-- The gathered rows' block at point `t`, read at `(r, j)`. -/
theorem rows_read (c : Dev nD) (t : Fin cfg1.N) (r : Fin 6600) (j : Fin 16) :
    iblk1 V c 0 t (ix2 r j) = V c main_v39 (ix2 (rowAt t r) j) := by
  obtain ⟨e0, e1, -, -, -, -⟩ := steps t
  show V c main_v39 (((cfg1.win 0).blk t).view.emb (ix2 r j)) = V c main_v39 (ix2 (rowAt t r) j)
  refine congrArg (V c main_v39) (funext fun a => Fin.ext ?_)
  match a with
  | ⟨0, _⟩ => show win1_0.index t (0 : Fin 2) * 6600 + 1 * r.val = t.val * 6600 + r.val; omega
  | ⟨1, _⟩ => show win1_0.index t (1 : Fin 2) * 16 + 1 * j.val = j.val; omega

/-- The normalisers' block at point `t`, read at `(r, 0)`. -/
theorem norm_read (c : Dev nD) (t : Fin cfg1.N) (r : Fin 6600) :
    iblk1 V c 1 t (ix2 r (0 : Fin 1)) = V c main_v31 (ix2 (rowAt t r) (0 : Fin 1)) := by
  obtain ⟨-, -, e2, e3, -, -⟩ := steps t
  show V c main_v31 (((cfg1.win 1).blk t).view.emb (ix2 r (0 : Fin 1))) = V c main_v31 (ix2 (rowAt t r) (0 : Fin 1))
  refine congrArg (V c main_v31) (funext fun a => Fin.ext ?_)
  match a with
  | ⟨0, _⟩ => show win1_1.index t (0 : Fin 2) * 6600 + 1 * r.val = t.val * 6600 + r.val; omega
  | ⟨1, _⟩ => show win1_1.index t (1 : Fin 2) * 1 + 1 * 0 = 0; omega

/-- Entry `(r, j)` of the output's block at point `t` sits at row `t · 6600 + r` of the output array. -/
theorem out_at (t : Fin cfg1.N) (r : Fin 6600) (j : Fin 16) :
    ((cfg1.win 2).blk t).view.emb (ix2 r j) = ix2 (rowAt t r) j := by
  obtain ⟨-, -, -, -, e4, e5⟩ := steps t
  refine funext fun a => Fin.ext ?_
  match a with
  | ⟨0, _⟩ => show win1_2.index t (0 : Fin 2) * 6600 + 1 * r.val = t.val * 6600 + r.val; omega
  | ⟨1, _⟩ => show win1_2.index t (1 : Fin 2) * 16 + 1 * j.val = j.val; omega

/-- What point `t` writes back is block `t` of the whole scaled array of the arrays as the call finds them. -/
theorem flushed_eq (c : Dev nD) (t : Fin cfg1.N) :
    (dat1 V c).flushed 2 t = ((cfg1.win 2).blk t).view.read (Elt Ideal) (scaled (V c main_v39) (V c main_v31)) := by
  show (cfg1.win 2).cut (grid1.coords t) ((dat1 V c).after 2 t) = _
  rw [after1_2]
  unfold out1_2
  rw [View.canon_unit_zero origin]
  simp only [View.ld_unit_zero (S := S6600x16) origin, View.ld_unit_zero (S := S6600x1) origin]
  funext y
  obtain ⟨r, j, rfl⟩ : ∃ (r : Fin 6600) (j : Fin 16), y = ix2 r j := ⟨y 0, y 1, eq_ix2 y⟩
  show k1_pay1 (iblk1 V c 1 t) (iblk1 V c 0 t) (ix2 r j)
    = scaled (V c main_v39) (V c main_v31) (((cfg1.win 2).blk t).view.emb (ix2 r j))
  rw [out_at, scaled_apply]
  refine (Rowwise.scale16_block (iblk1 V c 1 t) (iblk1 V c 0 t) r j).trans ?_
  rw [rows_read, norm_read]

/-- An index of the output array lies in point `t`'s block iff each coordinate lies in the block's range. -/
theorem mem_blk (t : Fin cfg1.N) (i : S9900000x16.Idx) :
    i ∈ ((cfg1.win 2).blk t).view.set ↔ ∀ a : Fin 2, win1_2.index t a * S6600x16.size a ≤ (i a).val
      ∧ (i a).val < win1_2.index t a * S6600x16.size a + S6600x16.size a := by
  show i ∈ ((View.whole main_v40).slice (win1_2.rect t)).set ↔ _
  rw [View.set_slice_whole, Rect.mem_set_unit]
  exact Iff.rfl

/-- The row blocks tile the output: row `r` is in the block of point `r / 6600`. -/
theorem cover (i : S9900000x16.Idx) :
    ∃ t : Fin cfg1.N, (cfg1.win 2).flush t = true ∧ i ∈ ((cfg1.win 2).blk t).view.set := by
  have h0 : (i 0).val < 9900000 := (i 0).isLt
  have h1 : (i 1).val < 16 := (i 1).isLt
  let t : Fin cfg1.N := ⟨(i 0).val / 6600, by show _ < grid1.N; rw [N_1]; omega⟩
  have ht : t.val = (i 0).val / 6600 := rfl
  obtain ⟨-, -, -, -, e4, e5⟩ := steps t
  refine ⟨t, flush1_2 t, ?_⟩
  rw [mem_blk]
  intro a
  match a with
  | ⟨0, _⟩ =>
    show win1_2.index t (0 : Fin 2) * 6600 ≤ (i 0).val ∧ (i 0).val < win1_2.index t (0 : Fin 2) * 6600 + 6600
    omega
  | ⟨1, _⟩ =>
    show win1_2.index t (1 : Fin 2) * 16 ≤ (i 1).val ∧ (i 1).val < win1_2.index t (1 : Fin 2) * 16 + 16
    omega

/-- After the call its output array is the gathered rows scaled by the normalisers' column, both as entered. -/
theorem final (c : Dev nD) : (dat1 V c).arrAt 2 cfg1.N = scaled (V c main_v39) (V c main_v31) :=
  (dat1 V c).arrAt_eq_of_cover 2 _ (fun t _ => flushed_eq V c t) cover

end Cert.KernelIdeal.Scale1

end
-- ==== Proof.Bias1.lean ====
/-
  The first layer's bias and rectifier as one whole-array function. The call walks 25 blocks of 12000 node rows; at
  each it adds the one bias row to every row of the block and clamps below at zero. Row `r` of the result depends on
  row `r` of the aggregated array only; the bias window stays on its one block. So block `t` of the whole clamped,
  biased array IS what point `t` computes, and the 25 blocks tile the 300000 rows.
-/
import proofs.«150239_j11175504904923_2_alg».proof.Proof.Gen.KernelIdeal.Frame
import proofs.«150239_j11175504904923_2_alg».proof.Proof.RowBlocks
import proofs.«150239_j11175504904923_2_alg».proof.Proof.Spec
import Idealize.ShloMosaic.Lib.Pipeline.Value
import Idealize.ShloMosaic.Lib.ValueIdx

set_option maxRecDepth 16384

noncomputable section

namespace Cert.KernelIdeal.Bias1

open Cert.KernelIdeal Cert.KernelIdeal.Gen Idealize.ShloMosaic Idealize.ShloMosaic.TcCoe Idealize.SL.Sem
open Idealize.ShloMosaic.ValueIdx
open Idealize.ShloMosaic.Pipeline (Dat)
open GraphNet (biased biased_apply clamped clamped_apply)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: point `t` takes row block `t` of the aggregated array and of the
    output, and the one block of the bias. -/
theorem steps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 25 := by
  have h : t.val < grid2.N := t.isLt
  rw [N_2] at h; exact h

/-- Row `r` of block `t` is row `t · 12000 + r` of the array. -/
def rowAt (t : Fin cfg2.N) (r : Fin 12000) : Fin 300000 :=
  ⟨t.val * 12000 + r.val, by have := point_lt t; have := r.isLt; omega⟩

/-- The aggregated rows' block at point `t`, read at `(r, j)`. -/
theorem rows_read (c : Dev nD) (t : Fin cfg2.N) (r : Fin 12000) (j : Fin 16) :
    iblk2 V c 0 t (ix2 r j) = V c main_v43 (ix2 (rowAt t r) j) := by
  obtain ⟨e0, e1, -, -, -, -⟩ := steps t
  show V c main_v43 (((cfg2.win 0).blk t).view.emb (ix2 r j)) = V c main_v43 (ix2 (rowAt t r) j)
  refine congrArg (V c main_v43) (funext fun a => Fin.ext ?_)
  match a with
  | ⟨0, _⟩ => show win2_0.index t (0 : Fin 2) * 12000 + 1 * r.val = t.val * 12000 + r.val; omega
  | ⟨1, _⟩ => show win2_0.index t (1 : Fin 2) * 16 + 1 * j.val = j.val; omega

/-- The bias's block at any point is the whole bias row. -/
theorem bias_read (c : Dev nD) (t : Fin cfg2.N) (j : Fin 16) :
    iblk2 V c 1 t (ix2 (0 : Fin 1) j) = V c main_v44 (ix2 (0 : Fin 1) j) := by
  obtain ⟨-, -, e2, e3, -, -⟩ := steps t
  show V c main_v44 (((cfg2.win 1).blk t).view.emb (ix2 (0 : Fin 1) j)) = V c main_v44 (ix2 (0 : Fin 1) j)
  refine congrArg (V c main_v44) (funext fun a => Fin.ext ?_)
  match a with
  | ⟨0, _⟩ => show win2_1.index t (0 : Fin 2) * 1 + 1 * 0 = 0; omega
  | ⟨1, _⟩ => show win2_1.index t (1 : Fin 2) * 16 + 1 * j.val = j.val; omega

/-- Entry `(r, j)` of the output's block at point `t` sits at row `t · 12000 + r` of the output array. -/
theorem out_at (t : Fin cfg2.N) (r : Fin 12000) (j : Fin 16) :
    ((cfg2.win 2).blk t).view.emb (ix2 r j) = ix2 (rowAt t r) j := by
  obtain ⟨-, -, -, -, e4, e5⟩ := steps t
  refine funext fun a => Fin.ext ?_
  match a with
  | ⟨0, _⟩ => show win2_2.index t (0 : Fin 2) * 12000 + 1 * r.val = t.val * 12000 + r.val; omega
  | ⟨1, _⟩ => show win2_2.index t (1 : Fin 2) * 16 + 1 * j.val = j.val; omega

/-- What point `t` writes back is block `t` of the whole clamped, biased array of the arrays as the call finds them. -/
theorem flushed_eq (c : Dev nD) (t : Fin cfg2.N) :
    (dat2 V c).flushed 2 t
      = ((cfg2.win 2).blk t).view.read (Elt Ideal) (clamped (biased (V c main_v43) (V c main_v44))) := by
  show (cfg2.win 2).cut (grid2.coords t) ((dat2 V c).after 2 t) = _
  rw [after2_2]
  unfold out2_2
  rw [View.canon_unit_zero origin]
  simp only [View.ld_unit_zero (S := S12000x16) origin, View.ld_unit_zero (S := S1x16) origin]
  funext y
  obtain ⟨r, j, rfl⟩ : ∃ (r : Fin 12000) (j : Fin 16), y = ix2 r j := ⟨y 0, y 1, eq_ix2 y⟩
  show k2_pay1 (iblk2 V c 1 t) (iblk2 V c 0 t) (ix2 r j)
    = clamped (biased (V c main_v43) (V c main_v44)) (((cfg2.win 2).blk t).view.emb (ix2 r j))
  rw [out_at, clamped_apply, biased_apply]
  refine (Rowwise.biasRelu_block (iblk2 V c 1 t) (iblk2 V c 0 t) r j).trans ?_
  rw [rows_read, bias_read]

/-- An index of the output array lies in point `t`'s block iff each coordinate lies in the block's range. -/
theorem mem_blk (t : Fin cfg2.N) (i : S300000x16.Idx) :
    i ∈ ((cfg2.win 2).blk t).view.set ↔ ∀ a : Fin 2, win2_2.index t a * S12000x16.size a ≤ (i a).val
      ∧ (i a).val < win2_2.index t a * S12000x16.size a + S12000x16.size a := by
  show i ∈ ((View.whole main_v45).slice (win2_2.rect t)).set ↔ _
  rw [View.set_slice_whole, Rect.mem_set_unit]
  exact Iff.rfl

/-- The row blocks tile the output: row `r` is in the block of point `r / 12000`. -/
theorem cover (i : S300000x16.Idx) :
    ∃ t : Fin cfg2.N, (cfg2.win 2).flush t = true ∧ i ∈ ((cfg2.win 2).blk t).view.set := by
  have h0 : (i 0).val < 300000 := (i 0).isLt
  have h1 : (i 1).val < 16 := (i 1).isLt
  let t : Fin cfg2.N := ⟨(i 0).val / 12000, by show _ < grid2.N; rw [N_2]; omega⟩
  have ht : t.val = (i 0).val / 12000 := rfl
  obtain ⟨-, -, -, -, e4, e5⟩ := steps t
  refine ⟨t, flush2_2 t, ?_⟩
  rw [mem_blk]
  intro a
  match a with
  | ⟨0, _⟩ =>
    show win2_2.index t (0 : Fin 2) * 12000 ≤ (i 0).val ∧ (i 0).val < win2_2.index t (0 : Fin 2) * 12000 + 12000
    omega
  | ⟨1, _⟩ =>
    show win2_2.index t (1 : Fin 2) * 16 ≤ (i 1).val ∧ (i 1).val < win2_2.index t (1 : Fin 2) * 16 + 16
    omega

/-- After the call its output array is the aggregated array plus the bias row, clamped below at zero. -/
theorem final (c : Dev nD) : (dat2 V c).arrAt 2 cfg2.N = clamped (biased (V c main_v43) (V c main_v44)) :=
  (dat2 V c).arrAt_eq_of_cover 2 _ (fun t _ => flushed_eq V c t) cover

end Cert.KernelIdeal.Bias1

end
-- ==== Proof.Layer2.lean ====
/-
  The second dense layer as one whole-array function. The call walks 25 blocks of 12000 node rows; at each it
  multiplies the block of 16 hidden features by the whole 16×2 weight. As in the first layer a row of the product
  depends on that row of the left operand only, so block `t` of the whole product IS what point `t` computes from
  block `t`, and the 25 blocks tile the 300000 rows.
-/
import proofs.«150239_j11175504904923_2_alg».proof.Proof.Gen.KernelIdeal.Frame
import proofs.«150239_j11175504904923_2_alg».proof.Proof.DenseBlock
import proofs.«150239_j11175504904923_2_alg».proof.Proof.Spec
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open GraphNet (product product_apply)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: point `t` takes row block `t` of the left operand and of the
    output, and the one block of the weight. -/
theorem steps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point_lt (t : Fin cfg3.N) : t.val < 25 := by
  have h : t.val < grid3.N := t.isLt
  rw [N_3] at h; exact h

/-- Row `r` of block `t` is row `t · 12000 + r` of the array. -/
def rowAt (t : Fin cfg3.N) (r : Fin 12000) : Fin 300000 :=
  ⟨t.val * 12000 + r.val, by have := point_lt t; have := r.isLt; omega⟩

/-- The left operand's block at point `t`, read at `(r, k)`: the array at row `t · 12000 + r`. -/
theorem left_read (c : Dev nD) (t : Fin cfg3.N) (r : Fin 12000) (k : Fin 16) :
    iblk3 V c 0 t (ix2 r k) = V c main_v45 (ix2 (rowAt t r) k) := by
  obtain ⟨e0, e1, -, -, -, -⟩ := steps t
  show V c main_v45 (((cfg3.win 0).blk t).view.emb (ix2 r k)) = V c main_v45 (ix2 (rowAt t r) k)
  refine congrArg (V c main_v45) (funext fun a => Fin.ext ?_)
  match a with
  | ⟨0, _⟩ => show win3_0.index t (0 : Fin 2) * 12000 + 1 * r.val = t.val * 12000 + r.val; omega
  | ⟨1, _⟩ => show win3_0.index t (1 : Fin 2) * 16 + 1 * k.val = k.val; omega

/-- The weight's block at any point is the whole weight. -/
theorem right_read (c : Dev nD) (t : Fin cfg3.N) (k : Fin 16) (j : Fin 2) :
    iblk3 V c 1 t (ix2 k j) = V c main_arg5 (ix2 k j) := by
  obtain ⟨-, -, e2, e3, -, -⟩ := steps t
  show V c main_arg5 (((cfg3.win 1).blk t).view.emb (ix2 k j)) = V c main_arg5 (ix2 k j)
  refine congrArg (V c main_arg5) (funext fun a => Fin.ext ?_)
  match a with
  | ⟨0, _⟩ => show win3_1.index t (0 : Fin 2) * 16 + 1 * k.val = k.val; omega
  | ⟨1, _⟩ => show win3_1.index t (1 : Fin 2) * 2 + 1 * j.val = j.val; omega

/-- Entry `(r, j)` of the output's block at point `t` sits at row `t · 12000 + r` of the output array. -/
theorem out_at (t : Fin cfg3.N) (r : Fin 12000) (j : Fin 2) :
    ((cfg3.win 2).blk t).view.emb (ix2 r j) = ix2 (rowAt t r) j := by
  obtain ⟨-, -, -, -, e4, e5⟩ := steps t
  refine funext fun a => Fin.ext ?_
  match a with
  | ⟨0, _⟩ => show win3_2.index t (0 : Fin 2) * 12000 + 1 * r.val = t.val * 12000 + r.val; omega
  | ⟨1, _⟩ => show win3_2.index t (1 : Fin 2) * 2 + 1 * j.val = j.val; omega

/-- What point `t` writes back is block `t` of the whole product of the arrays as the call finds them. -/
theorem flushed_eq (c : Dev nD) (t : Fin cfg3.N) :
    (dat3 V c).flushed 2 t = ((cfg3.win 2).blk t).view.read (Elt Ideal) (product (V c main_v45) (V c main_arg5)) := by
  show (cfg3.win 2).cut (grid3.coords t) ((dat3 V c).after 2 t) = _
  rw [after3_2]
  unfold out3_2
  rw [View.canon_unit_zero origin]
  simp only [View.ld_unit_zero (S := S12000x16) origin, View.ld_unit_zero (S := S16x2) origin]
  funext y
  obtain ⟨r, j, rfl⟩ : ∃ (r : Fin 12000) (j : Fin 2), y = ix2 r j := ⟨y 0, y 1, eq_ix2 y⟩
  show k3_pay1 (iblk3 V c 0 t) (iblk3 V c 1 t) (ix2 r j)
    = product (V c main_v45) (V c main_arg5) (((cfg3.win 2).blk t).view.emb (ix2 r j))
  rw [out_at, product_apply]
  refine (Dense.layer2_block (iblk3 V c 0 t) (iblk3 V c 1 t) r j).trans ?_
  exact Finset.sum_congr rfl fun k _ => by rw [left_read, right_read]

/-- An index of the output array lies in point `t`'s block iff each coordinate lies in the block's range. -/
theorem mem_blk (t : Fin cfg3.N) (i : S300000x2.Idx) :
    i ∈ ((cfg3.win 2).blk t).view.set ↔ ∀ a : Fin 2, win3_2.index t a * S12000x2.size a ≤ (i a).val
      ∧ (i a).val < win3_2.index t a * S12000x2.size a + S12000x2.size a := by
  show i ∈ ((View.whole main_v46).slice (win3_2.rect t)).set ↔ _
  rw [View.set_slice_whole, Rect.mem_set_unit]
  exact Iff.rfl

/-- The row blocks tile the output: row `r` is in the block of point `r / 12000`. -/
theorem cover (i : S300000x2.Idx) :
    ∃ t : Fin cfg3.N, (cfg3.win 2).flush t = true ∧ i ∈ ((cfg3.win 2).blk t).view.set := by
  have h0 : (i 0).val < 300000 := (i 0).isLt
  have h1 : (i 1).val < 2 := (i 1).isLt
  let t : Fin cfg3.N := ⟨(i 0).val / 12000, by show _ < grid3.N; rw [N_3]; omega⟩
  have ht : t.val = (i 0).val / 12000 := rfl
  obtain ⟨-, -, -, -, e4, e5⟩ := steps t
  refine ⟨t, flush3_2 t, ?_⟩
  rw [mem_blk]
  intro a
  match a with
  | ⟨0, _⟩ =>
    show win3_2.index t (0 : Fin 2) * 12000 ≤ (i 0).val ∧ (i 0).val < win3_2.index t (0 : Fin 2) * 12000 + 12000
    omega
  | ⟨1, _⟩ =>
    show win3_2.index t (1 : Fin 2) * 2 ≤ (i 1).val ∧ (i 1).val < win3_2.index t (1 : Fin 2) * 2 + 2
    omega

/-- After the call its output array is the whole product of the two arrays it was entered with. -/
theorem final (c : Dev nD) : (dat3 V c).arrAt 2 cfg3.N = product (V c main_v45) (V c main_arg5) :=
  (dat3 V c).arrAt_eq_of_cover 2 _ (fun t _ => flushed_eq V c t) cover

end Cert.KernelIdeal.Layer2

end
-- ==== Proof.Scale2.lean ====
/-
  The second layer's edge scaling as one whole-array function. The call walks 1500 blocks of 6600 edge rows; at
  each it multiplies the block of gathered 2-wide rows by the block of the edges' normalisers, a column. Row `r` of
  the result depends on row `r` of either operand only, and the three windows move together, so block `t` of the
  whole scaled array IS what point `t` computes, and the 1500 blocks tile the 9900000 rows.
-/
import proofs.«150239_j11175504904923_2_alg».proof.Proof.Gen.KernelIdeal.Frame
import proofs.«150239_j11175504904923_2_alg».proof.Proof.RowBlocks
import proofs.«150239_j11175504904923_2_alg».proof.Proof.Spec
import Idealize.ShloMosaic.Lib.Pipeline.Value
import Idealize.ShloMosaic.Lib.ValueIdx

set_option maxRecDepth 16384

noncomputable section

namespace Cert.KernelIdeal.Scale2

open Cert.KernelIdeal Cert.KernelIdeal.Gen Idealize.ShloMosaic Idealize.ShloMosaic.TcCoe Idealize.SL.Sem
open Idealize.ShloMosaic.ValueIdx
open Idealize.ShloMosaic.Pipeline (Dat)
open GraphNet (scaled scaled_apply)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 1500 grid points: point `t` takes row block `t` of all three arrays. -/
theorem steps : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 1500 := by
  have h : t.val < grid4.N := t.isLt
  rw [N_4] at h; exact h

/-- Row `r` of block `t` is row `t · 6600 + r` of the array. -/
def rowAt (t : Fin cfg4.N) (r : Fin 6600) : Fin 9900000 :=
  ⟨t.val * 6600 + r.val, by have := point_lt t; have := r.isLt; omega⟩

/-- The gathered rows' block at point `t`, read at `(r, j)`. -/
theorem rows_read (c : Dev nD) (t : Fin cfg4.N) (r : Fin 6600) (j : Fin 2) :
    iblk4 V c 0 t (ix2 r j) = V c main_v53 (ix2 (rowAt t r) j) := by
  obtain ⟨e0, e1, -, -, -, -⟩ := steps t
  show V c main_v53 (((cfg4.win 0).blk t).view.emb (ix2 r j)) = V c main_v53 (ix2 (rowAt t r) j)
  refine congrArg (V c main_v53) (funext fun a => Fin.ext ?_)
  match a with
  | ⟨0, _⟩ => show win4_0.index t (0 : Fin 2) * 6600 + 1 * r.val = t.val * 6600 + r.val; omega
  | ⟨1, _⟩ => show win4_0.index t (1 : Fin 2) * 2 + 1 * j.val = j.val; omega

/-- The normalisers' block at point `t`, read at `(r, 0)`. -/
theorem norm_read (c : Dev nD) (t : Fin cfg4.N) (r : Fin 6600) :
    iblk4 V c 1 t (ix2 r (0 : Fin 1)) = V c main_v31 (ix2 (rowAt t r) (0 : Fin 1)) := by
  obtain ⟨-, -, e2, e3, -, -⟩ := steps t
  show V c main_v31 (((cfg4.win 1).blk t).view.emb (ix2 r (0 : Fin 1))) = V c main_v31 (ix2 (rowAt t r) (0 : Fin 1))
  refine congrArg (V c main_v31) (funext fun a => Fin.ext ?_)
  match a with
  | ⟨0, _⟩ => show win4_1.index t (0 : Fin 2) * 6600 + 1 * r.val = t.val * 6600 + r.val; omega
  | ⟨1, _⟩ => show win4_1.index t (1 : Fin 2) * 1 + 1 * 0 = 0; omega

/-- Entry `(r, j)` of the output's block at point `t` sits at row `t · 6600 + r` of the output array. -/
theorem out_at (t : Fin cfg4.N) (r : Fin 6600) (j : Fin 2) :
    ((cfg4.win 2).blk t).view.emb (ix2 r j) = ix2 (rowAt t r) j := by
  obtain ⟨-, -, -, -, e4, e5⟩ := steps t
  refine funext fun a => Fin.ext ?_
  match a with
  | ⟨0, _⟩ => show win4_2.index t (0 : Fin 2) * 6600 + 1 * r.val = t.val * 6600 + r.val; omega
  | ⟨1, _⟩ => show win4_2.index t (1 : Fin 2) * 2 + 1 * j.val = j.val; omega

/-- What point `t` writes back is block `t` of the whole scaled array of the arrays as the call finds them. -/
theorem flushed_eq (c : Dev nD) (t : Fin cfg4.N) :
    (dat4 V c).flushed 2 t = ((cfg4.win 2).blk t).view.read (Elt Ideal) (scaled (V c main_v53) (V c main_v31)) := by
  show (cfg4.win 2).cut (grid4.coords t) ((dat4 V c).after 2 t) = _
  rw [after4_2]
  unfold out4_2
  rw [View.canon_unit_zero origin]
  simp only [View.ld_unit_zero (S := S6600x2) origin, View.ld_unit_zero (S := S6600x1) origin]
  funext y
  obtain ⟨r, j, rfl⟩ : ∃ (r : Fin 6600) (j : Fin 2), y = ix2 r j := ⟨y 0, y 1, eq_ix2 y⟩
  show k4_pay1 (iblk4 V c 1 t) (iblk4 V c 0 t) (ix2 r j)
    = scaled (V c main_v53) (V c main_v31) (((cfg4.win 2).blk t).view.emb (ix2 r j))
  rw [out_at, scaled_apply]
  refine (Rowwise.scale2_block (iblk4 V c 1 t) (iblk4 V c 0 t) r j).trans ?_
  rw [rows_read, norm_read]

/-- An index of the output array lies in point `t`'s block iff each coordinate lies in the block's range. -/
theorem mem_blk (t : Fin cfg4.N) (i : S9900000x2.Idx) :
    i ∈ ((cfg4.win 2).blk t).view.set ↔ ∀ a : Fin 2, win4_2.index t a * S6600x2.size a ≤ (i a).val
      ∧ (i a).val < win4_2.index t a * S6600x2.size a + S6600x2.size a := by
  show i ∈ ((View.whole main_v54).slice (win4_2.rect t)).set ↔ _
  rw [View.set_slice_whole, Rect.mem_set_unit]
  exact Iff.rfl

/-- The row blocks tile the output: row `r` is in the block of point `r / 6600`. -/
theorem cover (i : S9900000x2.Idx) :
    ∃ t : Fin cfg4.N, (cfg4.win 2).flush t = true ∧ i ∈ ((cfg4.win 2).blk t).view.set := by
  have h0 : (i 0).val < 9900000 := (i 0).isLt
  have h1 : (i 1).val < 2 := (i 1).isLt
  let t : Fin cfg4.N := ⟨(i 0).val / 6600, by show _ < grid4.N; rw [N_4]; omega⟩
  have ht : t.val = (i 0).val / 6600 := rfl
  obtain ⟨-, -, -, -, e4, e5⟩ := steps t
  refine ⟨t, flush4_2 t, ?_⟩
  rw [mem_blk]
  intro a
  match a with
  | ⟨0, _⟩ =>
    show win4_2.index t (0 : Fin 2) * 6600 ≤ (i 0).val ∧ (i 0).val < win4_2.index t (0 : Fin 2) * 6600 + 6600
    omega
  | ⟨1, _⟩ =>
    show win4_2.index t (1 : Fin 2) * 2 ≤ (i 1).val ∧ (i 1).val < win4_2.index t (1 : Fin 2) * 2 + 2
    omega

/-- After the call its output array is the gathered rows scaled by the normalisers' column, both as entered. -/
theorem final (c : Dev nD) : (dat4 V c).arrAt 2 cfg4.N = scaled (V c main_v53) (V c main_v31) :=
  (dat4 V c).arrAt_eq_of_cover 2 _ (fun t _ => flushed_eq V c t) cover

end Cert.KernelIdeal.Scale2

end
-- ==== Proof.Bias2.lean ====
/-
  The second layer's bias as one whole-array function. The call walks 25 blocks of 12000 node rows; at each it
  adds the one 2-wide bias row to every row of the block. Row `r` of the result depends on row `r` of the aggregated
  array only; the bias window stays on its one block. So block `t` of the whole biased array IS what point `t`
  computes, and the 25 blocks tile the 300000 rows.
-/
import proofs.«150239_j11175504904923_2_alg».proof.Proof.Gen.KernelIdeal.Frame
import proofs.«150239_j11175504904923_2_alg».proof.Proof.RowBlocks
import proofs.«150239_j11175504904923_2_alg».proof.Proof.Spec
import Idealize.ShloMosaic.Lib.Pipeline.Value
import Idealize.ShloMosaic.Lib.ValueIdx

set_option maxRecDepth 16384

noncomputable section

namespace Cert.KernelIdeal.Bias2

open Cert.KernelIdeal Cert.KernelIdeal.Gen Idealize.ShloMosaic Idealize.ShloMosaic.TcCoe Idealize.SL.Sem
open Idealize.ShloMosaic.ValueIdx
open Idealize.ShloMosaic.Pipeline (Dat)
open GraphNet (biased biased_apply)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: point `t` takes row block `t` of the aggregated array and of the
    output, and the one block of the bias. -/
theorem steps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem point_lt (t : Fin cfg5.N) : t.val < 25 := by
  have h : t.val < grid5.N := t.isLt
  rw [N_5] at h; exact h

/-- Row `r` of block `t` is row `t · 12000 + r` of the array. -/
def rowAt (t : Fin cfg5.N) (r : Fin 12000) : Fin 300000 :=
  ⟨t.val * 12000 + r.val, by have := point_lt t; have := r.isLt; omega⟩

/-- The aggregated rows' block at point `t`, read at `(r, j)`. -/
theorem rows_read (c : Dev nD) (t : Fin cfg5.N) (r : Fin 12000) (j : Fin 2) :
    iblk5 V c 0 t (ix2 r j) = V c main_v57 (ix2 (rowAt t r) j) := by
  obtain ⟨e0, e1, -, -, -, -⟩ := steps t
  show V c main_v57 (((cfg5.win 0).blk t).view.emb (ix2 r j)) = V c main_v57 (ix2 (rowAt t r) j)
  refine congrArg (V c main_v57) (funext fun a => Fin.ext ?_)
  match a with
  | ⟨0, _⟩ => show win5_0.index t (0 : Fin 2) * 12000 + 1 * r.val = t.val * 12000 + r.val; omega
  | ⟨1, _⟩ => show win5_0.index t (1 : Fin 2) * 2 + 1 * j.val = j.val; omega

/-- The bias's block at any point is the whole bias row. -/
theorem bias_read (c : Dev nD) (t : Fin cfg5.N) (j : Fin 2) :
    iblk5 V c 1 t (ix2 (0 : Fin 1) j) = V c main_v58 (ix2 (0 : Fin 1) j) := by
  obtain ⟨-, -, e2, e3, -, -⟩ := steps t
  show V c main_v58 (((cfg5.win 1).blk t).view.emb (ix2 (0 : Fin 1) j)) = V c main_v58 (ix2 (0 : Fin 1) j)
  refine congrArg (V c main_v58) (funext fun a => Fin.ext ?_)
  match a with
  | ⟨0, _⟩ => show win5_1.index t (0 : Fin 2) * 1 + 1 * 0 = 0; omega
  | ⟨1, _⟩ => show win5_1.index t (1 : Fin 2) * 2 + 1 * j.val = j.val; omega

/-- Entry `(r, j)` of the output's block at point `t` sits at row `t · 12000 + r` of the output array. -/
theorem out_at (t : Fin cfg5.N) (r : Fin 12000) (j : Fin 2) :
    ((cfg5.win 2).blk t).view.emb (ix2 r j) = ix2 (rowAt t r) j := by
  obtain ⟨-, -, -, -, e4, e5⟩ := steps t
  refine funext fun a => Fin.ext ?_
  match a with
  | ⟨0, _⟩ => show win5_2.index t (0 : Fin 2) * 12000 + 1 * r.val = t.val * 12000 + r.val; omega
  | ⟨1, _⟩ => show win5_2.index t (1 : Fin 2) * 2 + 1 * j.val = j.val; omega

/-- What point `t` writes back is block `t` of the whole biased array of the arrays as the call finds them. -/
theorem flushed_eq (c : Dev nD) (t : Fin cfg5.N) :
    (dat5 V c).flushed 2 t = ((cfg5.win 2).blk t).view.read (Elt Ideal) (biased (V c main_v57) (V c main_v58)) := by
  show (cfg5.win 2).cut (grid5.coords t) ((dat5 V c).after 2 t) = _
  rw [after5_2]
  unfold out5_2
  rw [View.canon_unit_zero origin]
  simp only [View.ld_unit_zero (S := S12000x2) origin, View.ld_unit_zero (S := S1x2) origin]
  funext y
  obtain ⟨r, j, rfl⟩ : ∃ (r : Fin 12000) (j : Fin 2), y = ix2 r j := ⟨y 0, y 1, eq_ix2 y⟩
  show k5_pay1 (iblk5 V c 1 t) (iblk5 V c 0 t) (ix2 r j)
    = biased (V c main_v57) (V c main_v58) (((cfg5.win 2).blk t).view.emb (ix2 r j))
  rw [out_at, biased_apply]
  refine (Rowwise.bias_block (iblk5 V c 1 t) (iblk5 V c 0 t) r j).trans ?_
  rw [rows_read, bias_read]

/-- An index of the output array lies in point `t`'s block iff each coordinate lies in the block's range. -/
theorem mem_blk (t : Fin cfg5.N) (i : S300000x2.Idx) :
    i ∈ ((cfg5.win 2).blk t).view.set ↔ ∀ a : Fin 2, win5_2.index t a * S12000x2.size a ≤ (i a).val
      ∧ (i a).val < win5_2.index t a * S12000x2.size a + S12000x2.size a := by
  show i ∈ ((View.whole main_v59).slice (win5_2.rect t)).set ↔ _
  rw [View.set_slice_whole, Rect.mem_set_unit]
  exact Iff.rfl

/-- The row blocks tile the output: row `r` is in the block of point `r / 12000`. -/
theorem cover (i : S300000x2.Idx) :
    ∃ t : Fin cfg5.N, (cfg5.win 2).flush t = true ∧ i ∈ ((cfg5.win 2).blk t).view.set := by
  have h0 : (i 0).val < 300000 := (i 0).isLt
  have h1 : (i 1).val < 2 := (i 1).isLt
  let t : Fin cfg5.N := ⟨(i 0).val / 12000, by show _ < grid5.N; rw [N_5]; omega⟩
  have ht : t.val = (i 0).val / 12000 := rfl
  obtain ⟨-, -, -, -, e4, e5⟩ := steps t
  refine ⟨t, flush5_2 t, ?_⟩
  rw [mem_blk]
  intro a
  match a with
  | ⟨0, _⟩ =>
    show win5_2.index t (0 : Fin 2) * 12000 ≤ (i 0).val ∧ (i 0).val < win5_2.index t (0 : Fin 2) * 12000 + 12000
    omega
  | ⟨1, _⟩ =>
    show win5_2.index t (1 : Fin 2) * 2 ≤ (i 1).val ∧ (i 1).val < win5_2.index t (1 : Fin 2) * 2 + 2
    omega

/-- After the call its output array is the aggregated array plus the bias row, both as entered. -/
theorem final (c : Dev nD) : (dat5 V c).arrAt 2 cfg5.N = biased (V c main_v57) (V c main_v58) :=
  (dat5 V c).arrAt_eq_of_cover 2 _ (fun t _ => flushed_eq V c t) cover

end Cert.KernelIdeal.Bias2

end
-- ==== Proof.PooledBlock.lean ====
/-
  The last body — a graph's mean logits and their log-softmax — read at an entry on the extended reals.

  The one block holds, for each of the 512 graphs, the two summed class logits `s (r, ·)` and the node count
  `cnt (r, 0)`. The body divides each logit by the count clamped below at one (`d c = s (r, c) / max (cnt (r, 0)) 1`),
  takes the maximum `μ` of the two quotients (a fold of `max` from −∞), shifts by it, and subtracts the logarithm of
  the sum of the two exponentials: entry `(r, j)` is `(d j − μ) − log (∑ c, exp (d c − μ))`.

  (`mean`, `top` and `logSoftmax` are the specification's.) The intermediate vectors are named (`means`, `tops`, `shifted`, `sums`) so that each step is one small equation
  over an arbitrary vector; the body is their composition by unfolding alone.
-/
import proofs.«150239_j11175504904923_2_alg».proof.Proof.Gen.KernelIdeal.Skeleton
import proofs.«150239_j11175504904923_2_alg».proof.Proof.LibColumns
import proofs.«150239_j11175504904923_2_alg».proof.Proof.Spec
import Idealize.ShloMosaic.Lib.ValueIdx
import Idealize.ShloMosaic.Lib.Pipeline.Value
import Idealize.ShloMosaic.PureOps.Ideal.Laws

noncomputable section

namespace Cert.KernelIdeal.Pooled

open Cert.KernelIdeal Cert.KernelIdeal.Gen Idealize.ShloMosaic Idealize.ShloMosaic.ValueIdx Idealize.ShloMosaic.Columns
open GraphNet (mean top logSoftmax)

/-! ## The body's intermediate vectors -/

/-- The quotients: every logit over its graph's clamped count, the count's column repeated along the classes. -/
def means (cnt : Vec Ideal S512x1 .f32) (s : Vec Ideal S512x2 .f32) : FVec Ideal S512x2 .f32 :=
  divf (shapeCast S512x2 s shapeCasts_S512x2_S512x2)
    (broadcastTo S512x2 (shapeCast S512x1 (maximumf (shapeCast S512x1 cnt shapeCasts_S512x1_S512x1)
      (broadcast S512x1 (Scalar.ofBits .f32 0x3F800000#32))) shapeCasts_S512x1_S512x1) broadcasts_S512x1_S512x2)

/-- Each graph's maximum over its two classes. -/
def tops (d : FVec Ideal S512x2 .f32) : FVec Ideal S512 .f32 :=
  multiReduction .maximumf [1] S512 d 0xFF800000#32 reduces_S512x2_S512 (.inl rfl) rfl

/-- A per-graph vector laid out as a column and repeated along the classes. -/
def spread (v : FVec Ideal S512 .f32) : FVec Ideal S512x2 .f32 :=
  broadcastTo S512x2 (shapeCast S512x1 (shapeCast S512x1 v shapeCasts_S512_S512x1) shapeCasts_S512x1_S512x1) broadcasts_S512x1_S512x2

/-- The logits less their graph's maximum. -/
def shifted (d : FVec Ideal S512x2 .f32) : FVec Ideal S512x2 .f32 := subf d (spread (tops d))

/-- Each graph's sum over its two classes. -/
def sums (e : FVec Ideal S512x2 .f32) : FVec Ideal S512 .f32 :=
  multiReduction .add [1] S512 e 0x00000000#32 reduces_S512x2_S512 (.inl rfl) rfl

/-- The logarithm of a per-graph vector, as a column repeated along the classes. -/
def spreadLog (v : FVec Ideal S512 .f32) : FVec Ideal S512x2 .f32 :=
  broadcastTo S512x2 (shapeCast S512x1 (log (shapeCast S512x1 v shapeCasts_S512_S512x1)) shapeCasts_S512x1_S512x1) broadcasts_S512x1_S512x2

/-- The body is the composition of these. -/
theorem body_eq (cnt : Vec Ideal S512x1 .f32) (s : Vec Ideal S512x2 .f32) :
    k6_pay1 (F := Ideal) cnt s = subf (shifted (means cnt s)) (spreadLog (sums (exp (shifted (means cnt s))))) := rfl

/-! ## Each vector at an index -/

theorem means_apply (cnt : Vec Ideal S512x1 .f32) (s : Vec Ideal S512x2 .f32) (r : Fin 512) (k : Fin 2) :
    means cnt s (ix2 r k) = mean (s (ix2 r k)) (cnt (ix2 r (0 : Fin 1))) := by
  unfold means mean
  refine (divf_apply _ _ _).trans ?_
  rw [shapeCast_self, shapeCast_self, shapeCast_self, broadcastTo_a1_ab_apply]
  rfl

/-- Row `r`'s entry `k` is the reduced index `r` with the class coordinate put back. -/
theorem lift_row (r : Fin 512) (k : Fin 2) : reduces_S512x2_S512.lift (ix1 r) k = ix2 r k :=
  funext fun a => Fin.ext (by
    match a with
    | ⟨0, _⟩ => rfl
    | ⟨1, _⟩ => rfl)

theorem tops_apply (d : FVec Ideal S512x2 .f32) (r : Fin 512) : tops d (ix1 r) = top fun k => d (ix2 r k) := by
  unfold tops top
  refine (Ideal.multiReduction_maximumf_single d 0xFF800000#32 reduces_S512x2_S512 (.inl rfl) rfl (ix1 r)).trans ?_
  refine congrArg (Finset.fold max _ · Finset.univ) (funext fun k => ?_)
  exact congrArg d (lift_row r k)

theorem spread_apply (v : FVec Ideal S512 .f32) (r : Fin 512) (k : Fin 2) : spread v (ix2 r k) = v (ix1 r) := by
  unfold spread
  rw [broadcastTo_a1_ab_apply, shapeCast_self, shapeCast_a_a1_apply]

theorem shifted_apply (d : FVec Ideal S512x2 .f32) (r : Fin 512) (k : Fin 2) :
    shifted d (ix2 r k) = d (ix2 r k) - top fun c => d (ix2 r c) := by
  unfold shifted
  refine (subf_apply _ _ _).trans ?_
  rw [spread_apply, tops_apply]

theorem sums_apply (e : FVec Ideal S512x2 .f32) (r : Fin 512) : sums e (ix1 r) = ∑ k : Fin 2, e (ix2 r k) := by
  unfold sums
  refine (Ideal.multiReduction_add_single e 0x00000000#32 reduces_S512x2_S512 (.inl rfl) rfl (ix1 r)).trans ?_
  exact Finset.sum_congr rfl fun k _ => congrArg e (lift_row r k)

theorem spreadLog_apply (v : FVec Ideal S512 .f32) (r : Fin 512) (k : Fin 2) : spreadLog v (ix2 r k) = Ideal.log (v (ix1 r)) := by
  unfold spreadLog
  rw [broadcastTo_a1_ab_apply, shapeCast_self]
  show Ideal.log (shapeCast S512x1 v shapeCasts_S512_S512x1 (ix2 r (0 : Fin 1))) = _
  rw [shapeCast_a_a1_apply]

/-- The body at an entry: the log-softmax of graph `r`'s two mean logits, at class `j`. -/
theorem head_block (cnt : Vec Ideal S512x1 .f32) (s : Vec Ideal S512x2 .f32) (r : Fin 512) (j : Fin 2) :
    k6_pay1 (F := Ideal) cnt s (ix2 r j) = logSoftmax (fun c => mean (s (ix2 r c)) (cnt (ix2 r (0 : Fin 1)))) j := by
  rw [body_eq]
  refine (subf_apply _ _ _).trans ?_
  rw [spreadLog_apply, sums_apply, shifted_apply]
  unfold logSoftmax
  have hd : (fun c : Fin 2 => means cnt s (ix2 r c)) = fun c => mean (s (ix2 r c)) (cnt (ix2 r (0 : Fin 1))) :=
    funext fun c => means_apply cnt s r c
  have he : ∀ k : Fin 2, exp (shifted (means cnt s)) (ix2 r k)
      = Ideal.exp (means cnt s (ix2 r k) - top fun c => means cnt s (ix2 r c)) := fun k => by
    show Ideal.exp (shifted (means cnt s) (ix2 r k)) = _
    rw [shifted_apply]
  rw [Finset.sum_congr rfl fun k _ => he k, hd]
  simp only [means_apply]

end Cert.KernelIdeal.Pooled

end
-- ==== Proof.Pooled.lean ====
/-
  The pooled head as one whole-array function. The last call has a single grid point whose three windows are the
  whole arrays: the graphs' summed logits `[512, 2]`, their node counts as a column `[512, 1]`, and the output. What
  the one point writes back is the specification's `head` of the two arrays the call was entered with, and its one
  block is the whole output.
-/
import proofs.«150239_j11175504904923_2_alg».proof.Proof.Gen.KernelIdeal.Frame
import proofs.«150239_j11175504904923_2_alg».proof.Proof.PooledBlock
import proofs.«150239_j11175504904923_2_alg».proof.Proof.Spec
import Idealize.ShloMosaic.Lib.Pipeline.Value
import Idealize.ShloMosaic.Lib.ValueIdx

set_option maxRecDepth 16384

noncomputable section

namespace Cert.KernelIdeal.PooledCall

open Cert.KernelIdeal Cert.KernelIdeal.Gen Idealize.ShloMosaic Idealize.ShloMosaic.TcCoe Idealize.SL.Sem
open Idealize.ShloMosaic.ValueIdx
open Idealize.ShloMosaic.Pipeline (Dat)
open GraphNet (head head_apply)

variable (V : (c : Dev nD) → (b : Ref sig .tc) → Buf (Elt Ideal) ((c : Thread nD τ).loc b))

theorem origin : (![0, 0] : Fin 2 → Nat) = fun _ => 0 := funext fun a => by fin_cases a <;> rfl

/-- The printed index maps at the one grid point: every window sits on its one block. -/
theorem steps : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- The summed logits' block is the whole array. -/
theorem sums_read (c : Dev nD) (t : Fin cfg6.N) (r : Fin 512) (k : Fin 2) :
    iblk6 V c 0 t (ix2 r k) = V c main_v66 (ix2 r k) := by
  obtain ⟨e0, e1, -, -, -, -⟩ := steps t
  show V c main_v66 (((cfg6.win 0).blk t).view.emb (ix2 r k)) = V c main_v66 (ix2 r k)
  refine congrArg (V c main_v66) (funext fun a => Fin.ext ?_)
  match a with
  | ⟨0, _⟩ => show win6_0.index t (0 : Fin 2) * 512 + 1 * r.val = r.val; omega
  | ⟨1, _⟩ => show win6_0.index t (1 : Fin 2) * 2 + 1 * k.val = k.val; omega

/-- The counts' block is the whole column. -/
theorem counts_read (c : Dev nD) (t : Fin cfg6.N) (r : Fin 512) :
    iblk6 V c 1 t (ix2 r (0 : Fin 1)) = V c main_v67 (ix2 r (0 : Fin 1)) := by
  obtain ⟨-, -, e2, e3, -, -⟩ := steps t
  show V c main_v67 (((cfg6.win 1).blk t).view.emb (ix2 r (0 : Fin 1))) = V c main_v67 (ix2 r (0 : Fin 1))
  refine congrArg (V c main_v67) (funext fun a => Fin.ext ?_)
  match a with
  | ⟨0, _⟩ => show win6_1.index t (0 : Fin 2) * 512 + 1 * r.val = r.val; omega
  | ⟨1, _⟩ => show win6_1.index t (1 : Fin 2) * 1 + 1 * 0 = 0; omega

/-- The output's block is the whole output. -/
theorem out_at (t : Fin cfg6.N) (r : Fin 512) (j : Fin 2) :
    ((cfg6.win 2).blk t).view.emb (ix2 r j) = ix2 r j := by
  obtain ⟨-, -, -, -, e4, e5⟩ := steps t
  refine funext fun a => Fin.ext ?_
  match a with
  | ⟨0, _⟩ => show win6_2.index t (0 : Fin 2) * 512 + 1 * r.val = r.val; omega
  | ⟨1, _⟩ => show win6_2.index t (1 : Fin 2) * 2 + 1 * j.val = j.val; omega

/-- What the one point writes back is the whole head of the arrays as the call finds them. -/
theorem flushed_eq (c : Dev nD) (t : Fin cfg6.N) :
    (dat6 V c).flushed 2 t = ((cfg6.win 2).blk t).view.read (Elt Ideal) (head (V c main_v66) (V c main_v67)) := by
  show (cfg6.win 2).cut (grid6.coords t) ((dat6 V c).after 2 t) = _
  rw [after6_2]
  unfold out6_2
  rw [View.canon_unit_zero origin]
  simp only [View.ld_unit_zero (S := S512x2) origin, View.ld_unit_zero (S := S512x1) origin]
  funext y
  obtain ⟨r, j, rfl⟩ : ∃ (r : Fin 512) (j : Fin 2), y = ix2 r j := ⟨y 0, y 1, eq_ix2 y⟩
  show k6_pay1 (iblk6 V c 1 t) (iblk6 V c 0 t) (ix2 r j)
    = head (V c main_v66) (V c main_v67) (((cfg6.win 2).blk t).view.emb (ix2 r j))
  rw [out_at, head_apply]
  refine (Pooled.head_block (iblk6 V c 1 t) (iblk6 V c 0 t) r j).trans ?_
  rw [counts_read]
  refine congrArg (GraphNet.logSoftmax · j) (funext fun k => ?_)
  rw [sums_read]

/-- An index of the output array lies in the point's block iff each coordinate lies in the block's range. -/
theorem mem_blk (t : Fin cfg6.N) (i : S512x2.Idx) :
    i ∈ ((cfg6.win 2).blk t).view.set ↔ ∀ a : Fin 2, win6_2.index t a * S512x2.size a ≤ (i a).val
      ∧ (i a).val < win6_2.index t a * S512x2.size a + S512x2.size a := by
  show i ∈ ((View.whole main_v68).slice (win6_2.rect t)).set ↔ _
  rw [View.set_slice_whole, Rect.mem_set_unit]
  exact Iff.rfl

/-- The one block is the whole output. -/
theorem cover (i : S512x2.Idx) :
    ∃ t : Fin cfg6.N, (cfg6.win 2).flush t = true ∧ i ∈ ((cfg6.win 2).blk t).view.set := by
  have h0 : (i 0).val < 512 := (i 0).isLt
  have h1 : (i 1).val < 2 := (i 1).isLt
  obtain ⟨-, -, -, -, e4, e5⟩ := steps t6_0
  refine ⟨t6_0, flush6_2 t6_0, ?_⟩
  rw [mem_blk]
  intro a
  match a with
  | ⟨0, _⟩ =>
    show win6_2.index t6_0 (0 : Fin 2) * 512 ≤ (i 0).val ∧ (i 0).val < win6_2.index t6_0 (0 : Fin 2) * 512 + 512
    omega
  | ⟨1, _⟩ =>
    show win6_2.index t6_0 (1 : Fin 2) * 2 ≤ (i 1).val ∧ (i 1).val < win6_2.index t6_0 (1 : Fin 2) * 2 + 2
    omega

/-- After the call its output array is the head of the summed logits and the counts' column, both as entered. -/
theorem final (c : Dev nD) : (dat6 V c).arrAt 2 cfg6.N = head (V c main_v66) (V c main_v67) :=
  (dat6 V c).arrAt_eq_of_cover 2 _ (fun t _ => flushed_eq V c t) cover

end Cert.KernelIdeal.PooledCall

end
-- ==== Proof.Flow.lean ====
/-
  The idealized kernel's buffers at every boundary of its run, each identified with the reference's stage of the
  launch arguments.

  The run alternates stretches of host operations with seven pipelined calls. Going forward from the launch memory:
  a host stretch carries the reference's stages at its inputs to the reference's stage at its output (FlowHost); a
  call leaves in its output array the specification's whole-array function of the arrays it was entered with (the
  seven call modules), which is the reference's next stage of the same arguments (RefStages, RefHead). The buffers
  that outlive a segment are carried by `Kept`. At the end the result buffer holds the reference's result stage of
  the kernel's own launch arguments.
-/
import proofs.«150239_j11175504904923_2_alg».proof.Proof.Gen.KernelIdeal.Frame
import proofs.«150239_j11175504904923_2_alg».proof.Proof.FlowHost
import proofs.«150239_j11175504904923_2_alg».proof.Proof.RefStages
import proofs.«150239_j11175504904923_2_alg».proof.Proof.RefHead
import proofs.«150239_j11175504904923_2_alg».proof.Proof.Layer1
import proofs.«150239_j11175504904923_2_alg».proof.Proof.Scale1
import proofs.«150239_j11175504904923_2_alg».proof.Proof.Bias1
import proofs.«150239_j11175504904923_2_alg».proof.Proof.Layer2
import proofs.«150239_j11175504904923_2_alg».proof.Proof.Scale2
import proofs.«150239_j11175504904923_2_alg».proof.Proof.Bias2
import proofs.«150239_j11175504904923_2_alg».proof.Proof.Pooled

set_option maxRecDepth 16384

noncomputable section

namespace Cert.KernelIdeal.Flow

open Cert.KernelIdeal Cert.KernelIdeal.Gen Idealize.ShloMosaic Idealize.ShloMosaic.TcCoe Idealize.SL.Sem
open Idealize.ShloMosaic.StableHlo
open Cert.ReferenceIdeal.Read
open Cert.ReferenceIdeal (Stages.dense1 Stages.dense2 Stages.scale1 Stages.scale2 Stages.bias1 Stages.bias2 Stages.pooled)

variable (m : (ℓ : Loc nD τ sig) → Buf (Elt Ideal) ℓ) (ρ : Dev nD → PrngReg) (c : Dev nD)

/-! ## The launch arguments, typed as the reference's stages take them -/

abbrev a0 : (⟨Cert.ReferenceIdeal.S300000x128, .f32⟩ : BufTy).Contents (Elt Ideal) := m ((c : Thread nD τ).loc main_arg0)
abbrev a1 : (⟨Cert.ReferenceIdeal.S2x9600000, .i32⟩ : BufTy).Contents (Elt Ideal) := m ((c : Thread nD τ).loc main_arg1)
abbrev a2 : (⟨Cert.ReferenceIdeal.S300000, .i32⟩ : BufTy).Contents (Elt Ideal) := m ((c : Thread nD τ).loc main_arg2)
abbrev a3 : (⟨Cert.ReferenceIdeal.S128x16, .f32⟩ : BufTy).Contents (Elt Ideal) := m ((c : Thread nD τ).loc main_arg3)
abbrev a4 : (⟨Cert.ReferenceIdeal.S16, .f32⟩ : BufTy).Contents (Elt Ideal) := m ((c : Thread nD τ).loc main_arg4)
abbrev a5 : (⟨Cert.ReferenceIdeal.S16x2, .f32⟩ : BufTy).Contents (Elt Ideal) := m ((c : Thread nD τ).loc main_arg5)
abbrev a6 : (⟨Cert.ReferenceIdeal.S2, .f32⟩ : BufTy).Contents (Elt Ideal) := m ((c : Thread nD τ).loc main_arg6)

/-! ## Up to the first call -/

theorem W1_pos : W1 m ρ c (Proc.devRef .tc main_v13) = val_main_v12 (F := Ideal) (a1 m c) := host0_pos (W0 m ρ c)
theorem W1_rsq : W1 m ρ c (Proc.devRef .tc main_v14) = val_main_v13 (F := Ideal) (a1 m c) := host0_rsq (W0 m ρ c)
theorem W1_zero : W1 m ρ c (Proc.devRef .tc main_cst_2) = val_main_cst_2 (F := Ideal) := host0_zero (W0 m ρ c)

theorem W2_dinv : W2 m ρ c (Proc.devRef .tc main_v15) = val_main_v14 (F := Ideal) (a1 m c) :=
  host01_dinv (W1 m ρ c) (a1 m c) (W1_pos m ρ c) (W1_rsq m ρ c) (W1_zero m ρ c)

theorem W2_src : W2 m ρ c (Proc.devRef .tc main_v3) = val_main_v3 (F := Ideal) (a1 m c) :=
  (host01_keep_src (W1 m ρ c)).trans (host0_src (W0 m ρ c))
theorem W2_dst : W2 m ρ c (Proc.devRef .tc main_v7) = val_main_v6 (F := Ideal) (a1 m c) :=
  (host01_keep_dst (W1 m ρ c)).trans (host0_dst (W0 m ρ c))

/-- What the first call and everything after it find. -/
theorem kept3 : Kept (a1 m c) (a2 m c) (a4 m c) (a5 m c) (a6 m c) (W3 m ρ c) where
  src := (host02_keep_src (W2 m ρ c)).trans (W2_src m ρ c)
  dst := (host02_keep_dst (W2 m ρ c)).trans (W2_dst m ρ c)
  norm := host02_norm (W2 m ρ c) (a1 m c) (W2_src m ρ c) (W2_dst m ρ c) (W2_dinv m ρ c)
  batch := prefix_keep_arg2 (W0 m ρ c)
  bias1 := prefix_keep_arg4 (W0 m ρ c)
  weight2 := prefix_keep_arg5 (W0 m ρ c)
  bias2 := prefix_keep_arg6 (W0 m ρ c)

theorem W3_arg0 : W3 m ρ c (Proc.devRef .tc main_arg0) = a0 m c := prefix_keep_arg0 (W0 m ρ c)
theorem W3_arg3 : W3 m ρ c (Proc.devRef .tc main_arg3) = a3 m c := prefix_keep_arg3 (W0 m ρ c)

/-! ## The first layer -/

/-- After the first call: the features times the first weight. -/
theorem out4 : W4 m ρ c (Proc.devRef .tc main_v32) = val_main_v30 (F := Ideal) (a0 m c) (a3 m c) :=
  (W4_arr m ρ c 2).trans <| (Layer1.final (V3 m ρ) c).trans <|
    (congrArg₂ (GraphNet.product (M := 300000) (K := 128) (C := 16)) (W3_arg0 m ρ c) (W3_arg3 m ρ c)).trans
      (Stages.dense1 (a0 m c) (a3 m c)).symm

/-- The first call writes none of the kept buffers: its three arrays are other buffers. -/
theorem kept4 : Kept (a1 m c) (a2 m c) (a4 m c) (a5 m c) (a6 m c) (W4 m ρ c) where
  src := (W4_of_ne m ρ c main_v3 (by decide)).trans (kept3 m ρ c).src
  dst := (W4_of_ne m ρ c main_v7 (by decide)).trans (kept3 m ρ c).dst
  norm := (W4_of_ne m ρ c main_v31 (by decide)).trans (kept3 m ρ c).norm
  batch := (W4_of_ne m ρ c main_arg2 (by decide)).trans (kept3 m ρ c).batch
  bias1 := (W4_of_ne m ρ c main_arg4 (by decide)).trans (kept3 m ρ c).bias1
  weight2 := (W4_of_ne m ρ c main_arg5 (by decide)).trans (kept3 m ρ c).weight2
  bias2 := (W4_of_ne m ρ c main_arg6 (by decide)).trans (kept3 m ρ c).bias2

theorem kept5 : Kept (a1 m c) (a2 m c) (a4 m c) (a5 m c) (a6 m c) (W5 m ρ c) := (kept4 m ρ c).host1

/-- The product's rows gathered at the source endpoints. -/
theorem in5 : W5 m ρ c (Proc.devRef .tc main_v39) = val_main_v37 (F := Ideal) (a0 m c) (a1 m c) (a3 m c) :=
  host1_gather (W4 m ρ c) (a0 m c) (a1 m c) (a3 m c) (kept4 m ρ c).src (out4 m ρ c)

/-- After the second call: the first layer's messages. -/
theorem out6 : W6 m ρ c (Proc.devRef .tc main_v40) = val_main_v40 (F := Ideal) (a0 m c) (a1 m c) (a3 m c) :=
  (W6_arr m ρ c 2).trans <| (Scale1.final (V5 m ρ) c).trans <|
    (congrArg₂ (GraphNet.scaled (M := 9900000) (C := 16)) (in5 m ρ c) (kept5 m ρ c).norm).trans
      (Stages.scale1 (a0 m c) (a1 m c) (a3 m c) shapeCasts_S9900000_S9900000x1).symm

/-- The second call writes none of the kept buffers (it reads the normalisers, through an input window). -/
theorem kept6 : Kept (a1 m c) (a2 m c) (a4 m c) (a5 m c) (a6 m c) (W6 m ρ c) where
  src := (W6_of_ne m ρ c main_v3 (by decide)).trans (kept5 m ρ c).src
  dst := (W6_of_ne m ρ c main_v7 (by decide)).trans (kept5 m ρ c).dst
  norm := ((W6_arr m ρ c 1).trans (((dat1 (V5 m ρ) c).arrAt_in 1 rfl _).trans (A_eq1 (V5 m ρ) c 1))).trans (kept5 m ρ c).norm
  batch := (W6_of_ne m ρ c main_arg2 (by decide)).trans (kept5 m ρ c).batch
  bias1 := (W6_of_ne m ρ c main_arg4 (by decide)).trans (kept5 m ρ c).bias1
  weight2 := (W6_of_ne m ρ c main_arg5 (by decide)).trans (kept5 m ρ c).weight2
  bias2 := (W6_of_ne m ρ c main_arg6 (by decide)).trans (kept5 m ρ c).bias2

theorem kept7 : Kept (a1 m c) (a2 m c) (a4 m c) (a5 m c) (a6 m c) (W7 m ρ c) := (kept6 m ρ c).host2

/-- The messages summed into their destination nodes. -/
theorem in7_sum : W7 m ρ c (Proc.devRef .tc main_v43) = val_main_v43 (F := Ideal) (a0 m c) (a1 m c) (a3 m c) :=
  host2_sum (W6 m ρ c) (a0 m c) (a1 m c) (a3 m c) (kept6 m ρ c).dst (out6 m ρ c)

/-- The first bias as one row. -/
theorem in7_bias : W7 m ρ c (Proc.devRef .tc main_v44) = shapeCast S1x16 (a4 m c) shapeCasts_S16_S1x16 :=
  (host2_bias (W6 m ρ c)).trans (congrArg (fun v => shapeCast S1x16 v shapeCasts_S16_S1x16) (kept6 m ρ c).bias1)

/-- After the third call: the hidden features. -/
theorem out8 : W8 m ρ c (Proc.devRef .tc main_v45) = val_main_v47 (F := Ideal) (a0 m c) (a1 m c) (a3 m c) (a4 m c) :=
  (W8_arr m ρ c 2).trans <| (Bias1.final (V7 m ρ) c).trans <|
    (congrArg (GraphNet.clamped (M := 300000) (C := 16))
      (congrArg₂ (GraphNet.biased (M := 300000) (C := 16)) (in7_sum m ρ c) (in7_bias m ρ c))).trans
      (Stages.bias1 (a0 m c) (a1 m c) (a3 m c) (a4 m c) shapeCasts_S16_S1x16).symm

/-- The third call writes none of the kept buffers. -/
theorem kept8 : Kept (a1 m c) (a2 m c) (a4 m c) (a5 m c) (a6 m c) (W8 m ρ c) where
  src := (W8_of_ne m ρ c main_v3 (by decide)).trans (kept7 m ρ c).src
  dst := (W8_of_ne m ρ c main_v7 (by decide)).trans (kept7 m ρ c).dst
  norm := (W8_of_ne m ρ c main_v31 (by decide)).trans (kept7 m ρ c).norm
  batch := (W8_of_ne m ρ c main_arg2 (by decide)).trans (kept7 m ρ c).batch
  bias1 := (W8_of_ne m ρ c main_arg4 (by decide)).trans (kept7 m ρ c).bias1
  weight2 := (W8_of_ne m ρ c main_arg5 (by decide)).trans (kept7 m ρ c).weight2
  bias2 := (W8_of_ne m ρ c main_arg6 (by decide)).trans (kept7 m ρ c).bias2

/-! ## The second layer -/

/-- After the fourth call: the hidden features times the second weight. -/
theorem out9 : W9 m ρ c (Proc.devRef .tc main_v46)
    = val_main_v48 (F := Ideal) (a0 m c) (a1 m c) (a3 m c) (a4 m c) (a5 m c) :=
  (W9_arr m ρ c 2).trans <| (Layer2.final (V8 m ρ) c).trans <|
    (congrArg₂ (GraphNet.product (M := 300000) (K := 16) (C := 2)) (out8 m ρ c) (kept8 m ρ c).weight2).trans
      (Stages.dense2 (a0 m c) (a1 m c) (a3 m c) (a4 m c) (a5 m c)).symm

/-- The fourth call writes none of the kept buffers that are still read (the second weight is not read again). -/
theorem kept9 : Kept (a1 m c) (a2 m c) (a4 m c) (a5 m c) (a6 m c) (W9 m ρ c) where
  src := (W9_of_ne m ρ c main_v3 (by decide)).trans (kept8 m ρ c).src
  dst := (W9_of_ne m ρ c main_v7 (by decide)).trans (kept8 m ρ c).dst
  norm := (W9_of_ne m ρ c main_v31 (by decide)).trans (kept8 m ρ c).norm
  batch := (W9_of_ne m ρ c main_arg2 (by decide)).trans (kept8 m ρ c).batch
  bias1 := (W9_of_ne m ρ c main_arg4 (by decide)).trans (kept8 m ρ c).bias1
  weight2 := ((W9_arr m ρ c 1).trans (((dat3 (V8 m ρ) c).arrAt_in 1 rfl _).trans (A_eq3 (V8 m ρ) c 1))).trans (kept8 m ρ c).weight2
  bias2 := (W9_of_ne m ρ c main_arg6 (by decide)).trans (kept8 m ρ c).bias2

theorem kept10 : Kept (a1 m c) (a2 m c) (a4 m c) (a5 m c) (a6 m c) (W10 m ρ c) := (kept9 m ρ c).host4

/-- The second product's rows gathered at the source endpoints. -/
theorem in10 : W10 m ρ c (Proc.devRef .tc main_v53)
    = val_main_v55 (F := Ideal) (a0 m c) (a1 m c) (a3 m c) (a4 m c) (a5 m c) :=
  host4_gather (W9 m ρ c) (a0 m c) (a1 m c) (a3 m c) (a4 m c) (a5 m c) (kept9 m ρ c).src (out9 m ρ c)

/-- After the fifth call: the second layer's messages. -/
theorem out11 : W11 m ρ c (Proc.devRef .tc main_v54)
    = val_main_v58 (F := Ideal) (a0 m c) (a1 m c) (a3 m c) (a4 m c) (a5 m c) :=
  (W11_arr m ρ c 2).trans <| (Scale2.final (V10 m ρ) c).trans <|
    (congrArg₂ (GraphNet.scaled (M := 9900000) (C := 2)) (in10 m ρ c) (kept10 m ρ c).norm).trans
      (Stages.scale2 (a0 m c) (a1 m c) (a3 m c) (a4 m c) (a5 m c) shapeCasts_S9900000_S9900000x1).symm

/-- The fifth call writes none of the kept buffers that are still read (the normalisers are not read again). -/
theorem kept11 : Kept (a1 m c) (a2 m c) (a4 m c) (a5 m c) (a6 m c) (W11 m ρ c) where
  src := (W11_of_ne m ρ c main_v3 (by decide)).trans (kept10 m ρ c).src
  dst := (W11_of_ne m ρ c main_v7 (by decide)).trans (kept10 m ρ c).dst
  norm := ((W11_arr m ρ c 1).trans (((dat4 (V10 m ρ) c).arrAt_in 1 rfl _).trans (A_eq4 (V10 m ρ) c 1))).trans (kept10 m ρ c).norm
  batch := (W11_of_ne m ρ c main_arg2 (by decide)).trans (kept10 m ρ c).batch
  bias1 := (W11_of_ne m ρ c main_arg4 (by decide)).trans (kept10 m ρ c).bias1
  weight2 := (W11_of_ne m ρ c main_arg5 (by decide)).trans (kept10 m ρ c).weight2
  bias2 := (W11_of_ne m ρ c main_arg6 (by decide)).trans (kept10 m ρ c).bias2

theorem kept12 : Kept (a1 m c) (a2 m c) (a4 m c) (a5 m c) (a6 m c) (W12 m ρ c) := (kept11 m ρ c).host5

/-- The second layer's messages summed into their destination nodes. -/
theorem in12_sum : W12 m ρ c (Proc.devRef .tc main_v57)
    = val_main_v61 (F := Ideal) (a0 m c) (a1 m c) (a3 m c) (a4 m c) (a5 m c) :=
  host5_sum (W11 m ρ c) (a0 m c) (a1 m c) (a3 m c) (a4 m c) (a5 m c) (kept11 m ρ c).dst (out11 m ρ c)

/-- The second bias as one row. -/
theorem in12_bias : W12 m ρ c (Proc.devRef .tc main_v58) = shapeCast S1x2 (a6 m c) shapeCasts_S2_S1x2 :=
  (host5_bias (W11 m ρ c)).trans (congrArg (fun v => shapeCast S1x2 v shapeCasts_S2_S1x2) (kept11 m ρ c).bias2)

/-- After the sixth call: the node logits. -/
theorem out13 : W13 m ρ c (Proc.devRef .tc main_v59)
    = val_main_v64 (F := Ideal) (a0 m c) (a1 m c) (a3 m c) (a4 m c) (a5 m c) (a6 m c) :=
  (W13_arr m ρ c 2).trans <| (Bias2.final (V12 m ρ) c).trans <|
    (congrArg₂ (GraphNet.biased (M := 300000) (C := 2)) (in12_sum m ρ c) (in12_bias m ρ c)).trans
      (Stages.bias2 (a0 m c) (a1 m c) (a3 m c) (a4 m c) (a5 m c) (a6 m c) shapeCasts_S2_S1x2).symm

/-- The node-to-graph map is still as launched after the sixth call. -/
theorem W13_batch : W13 m ρ c (Proc.devRef .tc main_arg2) = a2 m c :=
  (W13_of_ne m ρ c main_arg2 (by decide)).trans (kept12 m ρ c).batch

/-! ## The pooled head -/

theorem in14_sums : W14 m ρ c (Proc.devRef .tc main_v66)
    = val_main_v71 (F := Ideal) (a0 m c) (a1 m c) (a2 m c) (a3 m c) (a4 m c) (a5 m c) (a6 m c) :=
  host6_sums (W13 m ρ c) (a0 m c) (a1 m c) (a2 m c) (a3 m c) (a4 m c) (a5 m c) (a6 m c) (W13_batch m ρ c) (out13 m ρ c)

theorem in14_counts : W14 m ρ c (Proc.devRef .tc main_v67)
    = shapeCast S512x1 (val_main_v68 (F := Ideal) (a2 m c)) shapeCasts_S512_S512x1 :=
  host6_counts (W13 m ρ c) (a2 m c) (W13_batch m ρ c)

/-- AT THE END the result buffer holds the reference's result stage of the kernel's own launch arguments. -/
theorem result : W15 m ρ c (Proc.devRef .tc main_v68)
    = val_main_v77 (F := Ideal) (a0 m c) (a1 m c) (a2 m c) (a3 m c) (a4 m c) (a5 m c) (a6 m c) :=
  (W15_arr m ρ c 2).trans <| (PooledCall.final (V14 m ρ) c).trans <|
    (congrArg₂ GraphNet.head (in14_sums m ρ c) (in14_counts m ρ c)).trans
      (Stages.pooled (a0 m c) (a1 m c) (a2 m c) (a3 m c) (a4 m c) (a5 m c) (a6 m c)
        reduces_S512x2_S512 shapeCasts_S512_S512x1).symm

end Cert.KernelIdeal.Flow

end
-- ==== Proof.lean ====
/-
  A two-layer graph convolution with a per-graph mean and a log-softmax, computed by seven pipelined calls among
  host gathers and scatter-adds, against its plain jnp reference: the two agree on the extended reals.

  Both programs build the same edge lists (self loops appended), the same degrees and the same symmetric
  normalisers on the host, and apply the same gathers and scatter-adds. What the kernel moves into its calls are the
  two dense layers (a row-blocked product against one whole product: the same sum per entry), the edge scaling and
  the bias (entry by entry, the per-row and per-lane operands arriving as a column and as a row where the reference
  broadcasts), the rectifier, and the pooled head (the division by the clamped count and the log-softmax; the
  reference takes the row maximum once more against −∞, which changes nothing). No law that needs finite inputs is
  used: the precondition is never opened.

  The five claims: the three runs terminate with their arguments unchanged (the two kernels' by the generated
  frames, the reference's by its run); the idealization rewrote nothing; and from memories agreeing on the arguments
  both idealized runs end with the same result — the kernel's run names its result buffer's final contents, the
  flow through its fifteen segments identifies them with the reference's result stage of the same arguments, and
  the reference's run ends at that stage.
-/
import proofs.«150239_j11175504904923_2_alg».proof.Defs
import proofs.«150239_j11175504904923_2_alg».proof.Proof.Gen.Kernel
import proofs.«150239_j11175504904923_2_alg».proof.Proof.Gen.Kernel.Skeleton
import proofs.«150239_j11175504904923_2_alg».proof.Proof.Gen.Kernel.Launch
import proofs.«150239_j11175504904923_2_alg».proof.Proof.Gen.Kernel.Points
import proofs.«150239_j11175504904923_2_alg».proof.Proof.Gen.Kernel.Frame
import proofs.«150239_j11175504904923_2_alg».proof.Proof.Gen.KernelIdeal
import proofs.«150239_j11175504904923_2_alg».proof.Proof.Gen.KernelIdeal.Skeleton
import proofs.«150239_j11175504904923_2_alg».proof.Proof.Gen.KernelIdeal.Launch
import proofs.«150239_j11175504904923_2_alg».proof.Proof.Gen.KernelIdeal.Points
import proofs.«150239_j11175504904923_2_alg».proof.Proof.Gen.KernelIdeal.Frame
import proofs.«150239_j11175504904923_2_alg».proof.Proof.Gen.ReferenceIdeal
import proofs.«150239_j11175504904923_2_alg».proof.Proof.ReferenceRunPatched
import proofs.«150239_j11175504904923_2_alg».proof.Proof.ReferenceReadPatched
import proofs.«150239_j11175504904923_2_alg».proof.Proof.Gen.Pre_finite_inputs
import proofs.«150239_j11175504904923_2_alg».proof.Proof.KernelRun
import proofs.«150239_j11175504904923_2_alg».proof.Proof.Flow
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- The idealized kernel runs, and its arguments end unchanged. -/
theorem frame_ideal : Cert.frame_KernelIdeal := fun m ρ _ => Cert.KernelIdeal.Gen.frame m ρ

/-- The idealized reference runs, and its arguments end unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the kernel's result
    buffer ends at the reference's result stage of the kernel's arguments, and the reference's run ends at that stage
    of its own arguments, which are the same. -/
theorem algebraic : Cert.algebraic_KernelIdeal_ReferenceIdeal := by
  intro m ρ m' ρ' _ hagree
  refine ⟨fun c => Cert.KernelIdeal.Gen.W15 m ρ c (Proc.devRef .tc Cert.KernelIdeal.main_v68),
    Cert.KernelIdeal.Outcome.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2.1,
    (hagree c).2.2.2.2.1, (hagree c).2.2.2.2.2.1, (hagree c).2.2.2.2.2.2]
  exact (Cert.KernelIdeal.Flow.result m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
